-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000x3 : Shape := ⟨2, ![50000, 3]⟩
abbrev S64x64 : Shape := ⟨2, ![64, 64]⟩
abbrev S64 : Shape := ⟨1, ![64]⟩
abbrev S68x64 : Shape := ⟨2, ![68, 64]⟩
abbrev S1x16 : Shape := ⟨2, ![1, 16]⟩
abbrev S16 : Shape := ⟨1, ![16]⟩
abbrev S16x4 : Shape := ⟨2, ![16, 4]⟩
abbrev S4 : Shape := ⟨1, ![4]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S68x64 : S_.BroadcastsInDim S68x64 (![] : Fin 0 → Fin S68x64.rank)
  reducesTo_S68x64_S_d0_1 : S68x64.ReducesTo [0, 1] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S4 .f32) (main_v48 : IVec S_ 1) (main_v49 : FVec F S16x4 .f32) (main_v50 : FVec F S16x4 .f32) : IVec S_ 1 :=
  let main_v51 : IVec S16x4 1 := cmpf .olt main_v49 main_v50
  let main_c_19 : IVec S_ 1 := constantI S_ 1 1#1
  let main_v52 : IVec S_ 1 := (fun x v => Host.reduce IntOp.andi x v reducesTo_S16x4_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg8 : FVec F S64 .f32) (main_arg9 : FVec F S1x16 .f32) (main_arg10 : FVec F S16 .f32) (main_arg11 : FVec F S16x4 .f32) (main_arg12 : FVec F S4 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x16 .f32 := Host.absf main_arg9
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x4 .f32 := Host.absf main_arg11
  let main_cst_18 : FVec F S_ .f32 := constant S_ .f32 0x7F800000#32
  let main_v50 : FVec F S16x4 .f32 := broadcastInDim S16x4 ![] bcast_S_S16x4 main_cst_18
  fn_part3 (F := F) main_arg12 main_v48 main_v49 main_v50

def fn_part1 {F : FTy → Type} [FloatOps F] (main_arg5 : FVec F S68x64 .f32) (main_arg6 : FVec F S64 .f32) (main_arg7 : FVec F S64x64 .f32) (main_arg8 : FVec F S64 .f32) (main_arg9 : FVec F S1x16 .f32) (main_arg10 : FVec F S16 .f32) (main_arg11 : FVec F S16x4 .f32) (main_arg12 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S68x64 .f32 := Host.absf main_arg5
  let main_cst_6 : FVec F S_ .f32 := constant S_ .f32 0x7F800000#32
  let main_v20 : FVec F S68x64 .f32 := broadcastInDim S68x64 ![] bcast_S_S68x64 main_cst_6
  let main_v21 : IVec S68x64 1 := cmpf .olt main_v19 main_v20
  let main_c_7 : IVec S_ 1 := constantI S_ 1 1#1
  let main_v22 : IVec S_ 1 := (fun x v => Host.reduce IntOp.andi x v reducesTo_S68x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : IVec S2x800000 32) (main_arg2 : FVec F S50000x3 .f32) (main_arg3 : FVec F S64x64 .f32) (main_arg4 : FVec F S64 .f32) (main_arg5 : FVec F S68x64 .f32) (main_arg6 : FVec F S64 .f32) (main_arg7 : FVec F S64x64 .f32) (main_arg8 : FVec F S64 .f32) (main_arg9 : FVec F S1x16 .f32) (main_arg10 : FVec F S16 .f32) (main_arg11 : FVec F S16x4 .f32) (main_arg12 : FVec F S4 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg2
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000x3 : Shape := ⟨2, ![50000, 3]⟩
abbrev S64x64 : Shape := ⟨2, ![64, 64]⟩
abbrev S64 : Shape := ⟨1, ![64]⟩
abbrev S68x64 : Shape := ⟨2, ![68, 64]⟩
abbrev S1x16 : Shape := ⟨2, ![1, 16]⟩
abbrev S16 : Shape := ⟨1, ![16]⟩
abbrev S16x4 : Shape := ⟨2, ![16, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S2816x64 : Shape := ⟨2, ![2816, 64]⟩
abbrev S802816x64 : Shape := ⟨2, ![802816, 64]⟩
abbrev S2816 : Shape := ⟨1, ![2816]⟩
abbrev S802816 : Shape := ⟨1, ![802816]⟩
abbrev S802816x1 : Shape := ⟨2, ![802816, 1]⟩
abbrev S4x64 : Shape := ⟨2, ![4, 64]⟩
abbrev S1x4 : Shape := ⟨2, ![1, 4]⟩
abbrev S1x64 : Shape := ⟨2, ![1, 64]⟩
abbrev S8192x64 : Shape := ⟨2, ![8192, 64]⟩
abbrev S8192x1 : Shape := ⟨2, ![8192, 1]⟩
abbrev S8192x16 : Shape := ⟨2, ![8192, 16]⟩
abbrev S8192x4 : Shape := ⟨2, ![8192, 4]⟩
abbrev S5000x64 : Shape := ⟨2, ![5000, 64]⟩

abbrev nBuf : Space → Nat
  | .hbm => 74
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000x3, .f32⟩
  | .hbm, ⟨3, _⟩ => ⟨S64x64, .f32⟩
  | .hbm, ⟨4, _⟩ => ⟨S64, .f32⟩
  | .hbm, ⟨5, _⟩ => ⟨S68x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x16, .f32⟩
  | .hbm, ⟨10, _⟩ => ⟨S16, .f32⟩
  | .hbm, ⟨11, _⟩ => ⟨S16x4, .f32⟩
  | .hbm, ⟨12, _⟩ => ⟨S4, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x3, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x3, .f32⟩
  | .hbm, ⟨35, _⟩ => ⟨S800000x3, .f32⟩
  | .hbm, ⟨36, _⟩ => ⟨S800000x3, .f32⟩
  | .hbm, ⟨37, _⟩ => ⟨S_, .f32⟩
  | .hbm, ⟨38, _⟩ => ⟨S800000, .f32⟩
  | .hbm, ⟨39, _⟩ => ⟨S800000, .f32⟩
  | .hbm, ⟨40, _⟩ => ⟨S50000x64, .bf16⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .bf16⟩
  | .hbm, ⟨50, _⟩ => ⟨S_, .bf16⟩
  | .hbm, ⟨51, _⟩ => ⟨S2816x64, .bf16⟩
  | .hbm, ⟨52, _⟩ => ⟨S802816x64, .bf16⟩
  | .hbm, ⟨53, _⟩ => ⟨S_, .f32⟩
  | .hbm, ⟨54, _⟩ => ⟨S2816, .f32⟩
  | .hbm, ⟨55, _⟩ => ⟨S802816, .f32⟩
  | .hbm, ⟨56, _⟩ => ⟨S_, .i32⟩
  | .hbm, ⟨57, _⟩ => ⟨S2816, .i32⟩
  | .hbm, ⟨58, _⟩ => ⟨S802816, .i32⟩
  | .hbm, ⟨59, _⟩ => ⟨S802816x1, .f32⟩
  | .hbm, ⟨60, _⟩ => ⟨S64x64, .f32⟩
  | .hbm, ⟨61, _⟩ => ⟨S4x64, .f32⟩
  | .hbm, ⟨62, _⟩ => ⟨S1x16, .f32⟩
  | .hbm, ⟨63, _⟩ => ⟨S1x4, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S802816x64, .bf16⟩
  | .hbm, ⟨68, _⟩ => ⟨S802816x64, .f32⟩
  | .hbm, ⟨69, _⟩ => ⟨S_, .f32⟩
  | .hbm, ⟨70, _⟩ => ⟨S50000x64, .f32⟩
  | .hbm, ⟨71, _⟩ => ⟨S802816x1, .i32⟩
  | .hbm, ⟨72, _⟩ => ⟨S50000x64, .f32⟩
  | .hbm, ⟨73, _⟩ => ⟨S50000x64, .f32⟩
  | .local _ .vmem, ⟨0, _⟩ => ⟨S8192x64, .bf16⟩
  | .local _ .vmem, ⟨1, _⟩ => ⟨S8192x64, .bf16⟩
  | .local _ .vmem, ⟨2, _⟩ => ⟨S8192x1, .f32⟩
  | .local _ .vmem, ⟨3, _⟩ => ⟨S8192x1, .f32⟩
  | .local _ .vmem, ⟨4, _⟩ => ⟨S1x16, .f32⟩
  | .local _ .vmem, ⟨5, _⟩ => ⟨S1x16, .f32⟩
  | .local _ .vmem, ⟨6, _⟩ => ⟨S16x4, .f32⟩
  | .local _ .vmem, ⟨7, _⟩ => ⟨S1x4, .f32⟩
  | .local _ .vmem, ⟨8, _⟩ => ⟨S64x64, .f32⟩
  | .local _ .vmem, ⟨9, _⟩ => ⟨S4x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S8192x64, .bf16⟩
  | .local _ .vmem, ⟨14, _⟩ => ⟨S8192x64, .bf16⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bitsLt_bf16_f32 : FTy.bits .bf16 < FTy.bits .f32
  bcast_S_S2816x64 : S_.BroadcastsInDim S2816x64 (![] : Fin 0 → Fin S2816x64.rank)
  concatenates_S800000x64_S2816x64_S802816x64_d0 : Shape.Concatenates [S800000x64, S2816x64] S802816x64 0
  bcast_S_S2816 : S_.BroadcastsInDim S2816 (![] : Fin 0 → Fin S2816.rank)
  concatenates_S800000_S2816_S802816_d0 : Shape.Concatenates [S800000, S2816] S802816 0
  shapeCasts_S802816_S802816x1 : S802816.ShapeCasts S802816x1
  slices_S68x64_S64x64_0_0 : S68x64.Slices ![0, 0] S64x64
  slices_S68x64_S4x64_64_0 : S68x64.Slices ![64, 0] S4x64
  shapeCasts_S16_S1x16 : S16.ShapeCasts S1x16
  shapeCasts_S4_S1x4 : S4.ShapeCasts S1x4
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x4_S16x4_0_0 : ∀ a, (![0, 0] : Fin 2 → Nat) a + S16x4.size a ≤ S16x4.size a
  h_S16x4 : 0 < S16x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8192x1_S8192x16 : S8192x1.Broadcasts S8192x16
  broadcasts_S1x16_S8192x16 : S1x16.Broadcasts S8192x16
  broadcasts_S1x4_S8192x4 : S1x4.Broadcasts S8192x4
  broadcasts_S1x64_S8192x64 : S1x64.Broadcasts S8192x64
  natLt_1_32 : 1 < 32
  broadcasts_S8192x1_S8192x64 : S8192x1.Broadcasts S8192x64
  packedbf16_S8192x64_S8192x64_0_0 : (Rect.unit (s := S8192x64) ![0, 0] S8192x64.size inb_S8192x64_S8192x64_0_0).PackedRows (EltTy.packing .bf16)
  bcast_S_S50000x64 : S_.BroadcastsInDim S50000x64 (![] : Fin 0 → Fin S50000x64.rank)
  bcast_S802816_S802816x1_0 : S802816.BroadcastsInDim S802816x1 (![0] : Fin 1 → Fin S802816x1.rank)
  inb_S5000x64_S5000x64_0_0 : ∀ a, (![0, 0] : Fin 2 → Nat) a + S5000x64.size a ≤ S5000x64.size a
  h_S5000x64 : 0 < S5000x64.numel
  broadcasts_S1x64_S5000x64 : S1x64.Broadcasts S5000x64
  shapeCasts_S5000x64_S5000x64 : S5000x64.ShapeCasts S5000x64
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S8192x16_S16x4_S8192x4_1_0_0_1_n_n_wf : DotDims.WF S8192x16 S16x4 S8192x4 [1] [0] [0] [1] [] []
  dot_S8192x64_S64x64_S8192x64_1_0_0_1_n_n_wf : DotDims.WF S8192x64 S64x64 S8192x64 [1] [0] [0] [1] [] []
  dot_S8192x4_S4x64_S8192x64_1_0_0_1_n_n_wf : DotDims.WF S8192x4 S4x64 S8192x64 [1] [0] [0] [1] [] []
  scatter_S50000x64_S802816x1_S802816x64_1_0_0_1_wf : ScatterDims.WF S50000x64 S802816x1 S802816x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S802816x64.size a
  hwx0_0 : ∀ i : grid0.Coords, EltTy.bits .bf16 = 32 ∨ (Rect.block (s := S802816x64) S8192x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S802816x1.size a
  hwx0_1 : ∀ i : grid0.Coords, EltTy.bits .f32 = 32 ∨ (Rect.block (s := S802816x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4.size a ≤ S16x4.size a
  hwx0_4 : ∀ i : grid0.Coords, EltTy.bits .f32 = 32 ∨ (Rect.block (s := S16x4) S16x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x64.size a ≤ S4x64.size a
  hwx0_7 : ∀ i : grid0.Coords, EltTy.bits .f32 = 32 ∨ (Rect.block (s := S4x64) S4x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x64.size a ≤ S802816x64.size a
  hwx0_11 : ∀ i : grid0.Coords, EltTy.bits .bf16 = 32 ∨ (Rect.block (s := S802816x64) S8192x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x4_S4x64_S8192x64_1_0_0_1_n_n : DotDims S8192x4 S4x64 S8192x64 where
  lhsContracting := [1]
  rhsContracting := [0]
  lhsNonContracting := [0]
  rhsNonContracting := [1]
  lhsBatch := []
  rhsBatch := []
  wf := dot_S8192x4_S4x64_S8192x64_1_0_0_1_n_n_wf
def scatter_S50000x64_S802816x1_S802816x64_1_0_0_1 : ScatterDims S50000x64 S802816x1 S802816x64 where
  updateWindowDims := [1]
  insertedWindowDims := [0]
  scatterDimsToOperandDims := [0]
  indexVectorDim := 1
  wf := scatter_S50000x64_S802816x1_S802816x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v29) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S16x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S4x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v42) S8192x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000x3 : Shape := ⟨2, ![50000, 3]⟩
abbrev S64x64 : Shape := ⟨2, ![64, 64]⟩
abbrev S64 : Shape := ⟨1, ![64]⟩
abbrev S68x64 : Shape := ⟨2, ![68, 64]⟩
abbrev S1x16 : Shape := ⟨2, ![1, 16]⟩
abbrev S16 : Shape := ⟨1, ![16]⟩
abbrev S16x4 : Shape := ⟨2, ![16, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x16 : Shape := ⟨2, ![800000, 16]⟩
abbrev S800000x4 : Shape := ⟨2, ![800000, 4]⟩
abbrev S1x4 : Shape := ⟨2, ![1, 4]⟩
abbrev S800000x64 : Shape := ⟨2, ![800000, 64]⟩
abbrev S800000x68 : Shape := ⟨2, ![800000, 68]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S50000x64, .f32⟩
  | 1 => ⟨S2x800000, .i32⟩
  | 2 => ⟨S50000x3, .f32⟩
  | 3 => ⟨S64x64, .f32⟩
  | 4 => ⟨S64, .f32⟩
  | 5 => ⟨S68x64, .f32⟩
  | 6 => ⟨S64, .f32⟩
  | 7 => ⟨S64x64, .f32⟩
  | 8 => ⟨S64, .f32⟩
  | 9 => ⟨S1x16, .f32⟩
  | 10 => ⟨S16, .f32⟩
  | 11 => ⟨S16x4, .f32⟩
  | 12 => ⟨S4, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S800000x1, .f32⟩
  | 40 => ⟨S800000x1, .f32⟩
  | 41 => ⟨S_, .f32⟩
  | 42 => ⟨S800000x1, .f32⟩
  | 43 => ⟨S800000x1, .i1⟩
  | 44 => ⟨S800000x1, .f32⟩
  | 45 => ⟨S800000x16, .f32⟩
  | 46 => ⟨S1x16, .f32⟩
  | 47 => ⟨S800000x16, .f32⟩
  | 48 => ⟨S800000x16, .f32⟩
  | 49 => ⟨S800000x16, .f32⟩
  | 50 => ⟨S800000x16, .f32⟩
  | 51 => ⟨S_, .f32⟩
  | 52 => ⟨S800000x16, .f32⟩
  | 53 => ⟨S800000x16, .f32⟩
  | 54 => ⟨S_, .f32⟩
  | 55 => ⟨S800000x16, .f32⟩
  | 56 => ⟨S800000x16, .f32⟩
  | 57 => ⟨S800000x16, .f32⟩
  | 58 => ⟨S800000x4, .f32⟩
  | 59 => ⟨S1x4, .f32⟩
  | 60 => ⟨S800000x4, .f32⟩
  | 61 => ⟨S800000x4, .f32⟩
  | 62 => ⟨S800000x4, .f32⟩
  | 63 => ⟨S800000x4, .f32⟩
  | 64 => ⟨S_, .f32⟩
  | 65 => ⟨S800000x4, .f32⟩
  | 66 => ⟨S800000x4, .f32⟩
  | 67 => ⟨S_, .f32⟩
  | 68 => ⟨S800000x4, .f32⟩
  | 69 => ⟨S800000x4, .f32⟩
  | 70 => ⟨S800000x4, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S800000x68, .f32⟩
  | 81 => ⟨S800000x64, .f32⟩
  | 82 => ⟨S1x64, .f32⟩
  | 83 => ⟨S800000x64, .f32⟩
  | 84 => ⟨S800000x64, .f32⟩
  | 85 => ⟨S800000x64, .f32⟩
  | 86 => ⟨S800000x64, .f32⟩
  | 87 => ⟨S_, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S800000x64, .f32⟩
  | 94 => ⟨S800000x64, .f32⟩
  | 95 => ⟨S1x64, .f32⟩
  | 96 => ⟨S800000x64, .f32⟩
  | 97 => ⟨S800000x64, .f32⟩
  | 98 => ⟨S800000x64, .f32⟩
  | 99 => ⟨S800000x64, .f32⟩
  | 100 => ⟨S_, .f32⟩
  | 101 => ⟨S800000x64, .f32⟩
  | 102 => ⟨S800000x64, .f32⟩
  | 103 => ⟨S_, .f32⟩
  | 104 => ⟨S800000x64, .f32⟩
  | 105 => ⟨S800000x64, .f32⟩
  | 106 => ⟨S800000x64, .f32⟩
  | 107 => ⟨S_, .f32⟩
  | 108 => ⟨S800000x1, .f32⟩
  | 109 => ⟨S800000x1, .f32⟩
  | 110 => ⟨S800000x1, .f32⟩
  | 111 => ⟨S_, .f32⟩
  | 112 => ⟨S800000x1, .f32⟩
  | 113 => ⟨S800000x1, .f32⟩
  | 114 => ⟨S_, .f32⟩
  | 115 => ⟨S_, .f32⟩
  | 116 => ⟨S_, .f32⟩
  | 117 => ⟨S800000x1, .f32⟩
  | 118 => ⟨S800000x1, .f32⟩
  | 119 => ⟨S_, .f32⟩
  | 120 => ⟨S800000x1, .f32⟩
  | 121 => ⟨S800000x1, .f32⟩
  | 122 => ⟨S800000x1, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x64, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v32 : Ref sig .tc := ⟨.hbm, 70, rfl⟩
abbrev main_c_3 : Ref sig .tc := ⟨.hbm, 71, rfl⟩
abbrev main_v33 : Ref sig .tc := ⟨.hbm, 72, rfl⟩
abbrev main_v34 : Ref sig .tc := ⟨.hbm, 73, rfl⟩
abbrev main_c_4 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v50 : Ref sig .tc := ⟨.hbm, 106, rfl⟩
abbrev main_cst_5 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_6 : Ref sig .tc := ⟨.hbm, 111, rfl⟩
abbrev main_v54 : Ref sig .tc := ⟨.hbm, 112, rfl⟩
abbrev main_v55 : Ref sig .tc := ⟨.hbm, 113, rfl⟩
abbrev main_cst_7 : Ref sig .tc := ⟨.hbm, 114, rfl⟩
abbrev main_cst_8 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_9 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  bcast_S_S800000x16 : S_.BroadcastsInDim S800000x16 (![] : Fin 0 → Fin S800000x16.rank)
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  bcast_S_S800000x4 : S_.BroadcastsInDim S800000x4 (![] : Fin 0 → Fin S800000x4.rank)
  concatenates_S800000x64_S800000x4_S800000x68_d1 : Shape.Concatenates [S800000x64, S800000x4] S800000x68 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  gather_S50000x3_S800000x1_S800000x3_1_0_n_n_0_1_13_wf : GatherDims.WF S50000x3 S800000x1 S800000x3 [1] [0] [] [0] [] 1 ![1, 3]
  dot_S800000x1_S1x16_S800000x16_1_0_0_1_n_n_wf : DotDims.WF S800000x1 S1x16 S800000x16 [1] [0] [0] [1] [] []
  dot_S800000x16_S16x4_S800000x4_1_0_0_1_n_n_wf : DotDims.WF S800000x16 S16x4 S800000x4 [1] [0] [0] [1] [] []
  gather_S50000x64_S800000x1_S800000x64_1_0_n_n_0_1_164_wf : GatherDims.WF S50000x64 S800000x1 S800000x64 [1] [0] [] [0] [] 1 ![1, 64]
  dot_S800000x68_S68x64_S800000x64_1_0_0_1_n_n_wf : DotDims.WF S800000x68 S68x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x1_S1x16_S800000x16_1_0_0_1_n_n : DotDims S800000x1 S1x16 S800000x16 where
  lhsContracting := [1]
  rhsContracting := [0]
  lhsNonContracting := [0]
  rhsNonContracting := [1]
  lhsBatch := []
  rhsBatch := []
  wf := dot_S800000x1_S1x16_S800000x16_1_0_0_1_n_n_wf
def dot_S800000x16_S16x4_S800000x4_1_0_0_1_n_n : DotDims S800000x16 S16x4 S800000x4 where
  lhsContracting := [1]
  rhsContracting := [0]
  lhsNonContracting := [0]
  rhsNonContracting := [1]
  lhsBatch := []
  rhsBatch := []
  wf := dot_S800000x16_S16x4_S800000x4_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x68_S68x64_S800000x64_1_0_0_1_n_n : DotDims S800000x68 S68x64 S800000x64 where
  lhsContracting := [1]
  rhsContracting := [0]
  lhsNonContracting := [0]
  rhsNonContracting := [1]
  lhsBatch := []
  rhsBatch := []
  wf := dot_S800000x68_S68x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's program runs as six segments: three stretches of host operations (the index
  normalisation and the position gathers, the edge lengths, the feature gather with its padding), the edge
  network's region, one more stretch (the widening and the scatter-add into node rows) and the node projection's
  region.  The buffer contents at each boundary are the fold W0 … W6 of the segments over the launch memory.
  Here the launch theorem for a program of several regions is applied to those segments once more, with the
  final state read at EVERY unscoped buffer, so that the result buffer's contents are named: at the return it
  holds W6 at its reference, and every argument array holds what it was launched with.
-/
import proofs.«148534_j72164040507424_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of a final memory on core `c`: every unscoped buffer holds the last boundary's contents. -/
def AtEnd (c : Dev nD) (s : MemSt nD τ sig (Elt F)) : Prop :=
  ∀ b ∈ Pipeline.ucRefs τ sig, s.mem (((c : Thread nD τ)).1, b) = W6 m ρ c b

/-- The thread state the first segment starts from: the unscoped buffers at the launch memory, the generator
    register and nothing owed. -/
abbrev Start (c : Dev nD) : sProp 𝕄 :=
  iprop(StableHlo.held (c : Thread nD τ) (Pipeline.ucRefs τ sig) (W0 m ρ c) ∗ R c)

set_option backward.isDefEq.respectTransparency.types false in
/-- Every weakly fair execution terminates without a fault, and in the final memory every unscoped buffer of
    every core holds the last boundary's contents. -/
theorem run_all : θ_run defs (onTc (τ := τ) (main (F := F))) ⟨m, fun _ => 0, ρ⟩ (fun r => ∀ c : Dev nD, AtEnd m ρ c r.2) := by
  -- each pipeline is entered once
  have hnd : (Pipeline.Seg.pipes (segs m ρ)).Nodup := by
    simp only [segs, Pipeline.Seg.pipes_host, Pipeline.Seg.pipes_region, Pipeline.Seg.pipes_nil]; decide
  refine Pipeline.θ_run_regions_kit (pcfgs (F := F)) adm (pdats m ρ) () cellOf_inj emb₁ defs₀ 𝒱₀ L lv m ρ main (segs m ρ)
    (fun c Q => by rw [main_run m ρ c]) hnd
    (O₀ := 0) (hL := fun _ _ => rfl) (G := fun _ => iprop(emp))
    (u₀ := initOf (Pipeline.cells cfgs cellOf_inj) (Pipeline.launchToks cfgs cellOf_inj))
    (hu₀ := ?launch) (T₀ := Start m ρ) (Tₙ := Tₙ m ρ)
    (hch := ⟨fun _ => .rfl, fun _ => .rfl, fun _ => .rfl, fun _ => .rfl, fun _ => .rfl, fun _ => .rfl, fun _ => .rfl⟩)
    (hinit := ?first) (QY := AtEnd m ρ) (hfin := ?last) (hQ := fun s h => h)
  case launch =>
    -- the launch element is the staging cells' initial ghost state; no core is dealt anything else
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case first =>
    -- each core's launch holdings are its first thread state
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howes, -, Hprng, -⟩, -⟩
    imodintro
    isplitl [Hbufs]; · iexact Hbufs
    isplitl [Hprng]; · iexists _; iexact Hprng
    iexists ∅; iexact Howes
  case last =>
    -- the last thread state holds every unscoped buffer at W6: read them against the final state
    intro c s'
    iintro ⟨⟨Hbufs, -⟩, HSI⟩
    unfold StableHlo.held
    imodintro
    unfold AtEnd
    iapply (pointsTo_read_all (Pipeline.ucRefs τ sig) (fun b => (((c : Thread nD τ)).1, b)) (W6 m ρ c) s')
    isplitl [Hbufs] <;> iassumption

/-- The run with the result named: the result buffer ends at the last boundary's contents, the argument arrays
    as launched. -/
theorem run : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v47 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

end Cert.KernelIdeal.KRun

end
-- ==== Proof.Spec.lean ====
/-
  The edge network of a message-passing layer, entry by entry on the extended reals.

  For one edge with source-node features xs (64 numbers) and length d, the message is

      hid p   = silu (d · wr1 p + br1 p)                                   (16 radial hidden units)
      rad q   = silu (Σ_p hid p · wr2 p q + br2 q)                          (4 radial features)
      h1 j    = silu ((Σ_k xs k · w1a k j + Σ_q rad q · w1b q j) + b1 j)    (64 hidden units)
      h2 o    = silu (Σ_j h1 j · w2 j o + b2 o)                             (64 outputs)
      msg o   = h2 o · cut d,   cut d = min 1 (max 0 (1 − (d/10)²)) · [d < 10]

  with silu x = x · logistic x, and w1a, w1b the first 64 and the last 4 rows of the 68-row first-layer weight.
  A node's result is its own projection plus bias plus the sum of the messages of the edges that point at it.
  The float literals 0, 1, 10 stay the words the programs carry; they are never evaluated.
-/
import Idealize.ShloMosaic.PureOps.Ideal

noncomputable section

namespace Cert.EdgeNet

open Idealize.ShloMosaic

/-- The words of 0.0, 1.0 and 10.0 read as extended reals. -/
abbrev zero : EReal := Ideal.ofBits .f32 0x00000000#32
abbrev one : EReal := Ideal.ofBits .f32 0x3F800000#32
abbrev ten : EReal := Ideal.ofBits .f32 0x41200000#32

/-- x · logistic x. -/
def silu (x : EReal) : EReal := x * Ideal.logistic x

/-- A radial hidden unit: silu of the length scaled by the unit's weight, plus its bias. -/
def hid (d : EReal) (wr1 br1 : Fin 16 → EReal) (p : Fin 16) : EReal := silu (d * wr1 p + br1 p)

/-- A radial feature: silu of the hidden units against a column of the second radial weight, plus the bias. -/
def rad (d : EReal) (wr1 br1 : Fin 16 → EReal) (wr2 : Fin 16 → Fin 4 → EReal) (br2 : Fin 4 → EReal) (q : Fin 4) : EReal :=
  silu ((∑ p, hid d wr1 br1 p * wr2 p q) + br2 q)

/-- A hidden unit of the edge network: the source features against the first 64 weight rows, the radial features
    against the last 4, the bias, through silu. -/
def h1 (xs : Fin 64 → EReal) (r : Fin 4 → EReal) (w1a : Fin 64 → Fin 64 → EReal) (w1b : Fin 4 → Fin 64 → EReal)
    (b1 : Fin 64 → EReal) (j : Fin 64) : EReal :=
  silu (((∑ k, xs k * w1a k j) + (∑ q, r q * w1b q j)) + b1 j)

/-- An output of the edge network. -/
def h2 (h : Fin 64 → EReal) (w2 : Fin 64 → Fin 64 → EReal) (b2 : Fin 64 → EReal) (o : Fin 64) : EReal :=
  silu ((∑ j, h j * w2 j o) + b2 o)

/-- The smooth cutoff times the indicator of d < 10, the indicator read off the comparison's bit as a number. -/
def cut (d : EReal) : EReal :=
  min one (max zero (one - Ideal.div d ten * Ideal.div d ten)) * (((Ideal.cmp .olt d ten).toNat : ℝ) : EReal)

/-- The message of one edge, entry o. -/
def msg (xs : Fin 64 → EReal) (d : EReal) (wr1 br1 : Fin 16 → EReal) (wr2 : Fin 16 → Fin 4 → EReal) (br2 : Fin 4 → EReal)
    (w1a : Fin 64 → Fin 64 → EReal) (w1b : Fin 4 → Fin 64 → EReal) (b1 : Fin 64 → EReal)
    (w2 : Fin 64 → Fin 64 → EReal) (b2 : Fin 64 → EReal) (o : Fin 64) : EReal :=
  h2 (h1 xs (rad d wr1 br1 wr2 br2) w1a w1b b1) w2 b2 o * cut d

/-- A node's result, entry o: its features against a column of the projection weight, the bias, and what was
    aggregated into the node. -/
def node (x : Fin 64 → EReal) (wp : Fin 64 → Fin 64 → EReal) (bp : Fin 64 → EReal) (aggr : Fin 64 → EReal) (o : Fin 64) : EReal :=
  ((∑ k, x k * wp k o) + bp o) + aggr o

end Cert.EdgeNet

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.KernelEntry.lean ====
/-
  The two vector-unit bodies' stored values, read at one entry, on the extended reals.

  The edge network's body computes, for every edge r and output o, the message of the specification: two radial
  layers from the edge's length, two dense layers from the source features and the radial features, each through
  x · logistic x, and the product with the smooth cutoff and the indicator of "length below ten".  The node
  projection's body computes a node's features against a column of the projection weight, plus the bias, plus what
  was aggregated into the node.

  On the extended reals a change of float format is the identity, a matrix product into the zero accumulator is the
  row-by-column sum, a row broadcast down the rows reads the row's entry of the column, and a column broadcast along
  the columns reads the column's entry of the row; so every stage is read off at the entry (r, o) and is literally the
  specification's stage.  Nothing here needs an entry to be finite.
-/
import proofs.«148534_j72164040507424_2_alg».proof.Proof.Gen.KernelIdeal.Skeleton
import proofs.«148534_j72164040507424_2_alg».proof.Proof.Spec
import proofs.«148534_j72164040507424_2_alg».proof.Proof.LibDense
import proofs.«148534_j72164040507424_2_alg».proof.Proof.LibSoftmaxRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.ValueIdx

/-! ## The four products' dimension records are the plain rows-by-columns ones -/

theorem dot_16_4 : dot_S8192x16_S16x4_S8192x4_1_0_0_1_n_n = DotDims.plain 8192 16 4 := rfl
theorem dot_64_64 : dot_S8192x64_S64x64_S8192x64_1_0_0_1_n_n = DotDims.plain 8192 64 64 := rfl
theorem dot_4_64 : dot_S8192x4_S4x64_S8192x64_1_0_0_1_n_n = DotDims.plain 8192 4 64 := rfl
theorem dot_node : dot_S5000x64_S64x64_S5000x64_1_0_0_1_n_n = DotDims.plain 5000 64 64 := rfl

/-- A matrix product with plain dimensions into the zero accumulator, at entry (r, j): the sum over k of the left
    operand's (r, k) times the right operand's (k, j). -/
theorem mm_entry {M K N : ℕ} (D : DotDims ⟨2, ![M, K]⟩ ⟨2, ![K, N]⟩ ⟨2, ![M, N]⟩) (hD : D = DotDims.plain M K N)
    {φ₁ φ₂ : FTy} (x : FVec Ideal ⟨2, ![M, K]⟩ φ₁) (w : FVec Ideal ⟨2, ![K, N]⟩ φ₂) (r : Fin M) (j : Fin N) :
    FloatOps.matmul D none x w (constant (F := Ideal) ⟨2, ![M, N]⟩ .f32 0x00000000#32) (ix2 r j)
      = ∑ k : Fin K, x (ix2 r k) * w (ix2 k j) := by
  subst hD
  exact Cert.LibDense.matmul_plain x w (ix2 r j)

/-! ## The node projection's body -/

/-- The node projection's stored value at (r, o): the node's features against column o of the weight, plus the
    bias, plus the aggregate. -/
theorem node_entry (v0 v9 : Vec Ideal S5000x64 .f32) (v2 : Vec Ideal S64x64 .f32) (v5 : Vec Ideal S1x64 .f32)
    (r : Fin 5000) (o : Fin 64) :
    k1_pay1 v0 v2 v5 v9 (ix2 r o)
      = Cert.EdgeNet.node (fun k => v0 (ix2 r k)) (fun k o => v2 (ix2 k o)) (fun o => v5 (ix2 0 o))
          (fun o => v9 (ix2 r o)) o := by
  show (FloatOps.matmul dot_S5000x64_S64x64_S5000x64_1_0_0_1_n_n none (truncf .bf16 v0 bitsLt_bf16_f32)
          (truncf .bf16 v2 bitsLt_bf16_f32) (constant (F := Ideal) S5000x64 .f32 0x00000000#32) (ix2 r o)
        + broadcastTo S5000x64 (shapeCast S1x64 v5 shapeCasts_S1x64_S1x64) broadcasts_S1x64_S5000x64 (ix2 r o))
      + shapeCast S5000x64 v9 shapeCasts_S5000x64_S5000x64 (ix2 r o) = _
  rw [shapeCast_self, shapeCast_self, mm_entry _ dot_node, broadcastTo_1b_ab_apply]
  rfl

/-! ## The edge network's body -/

/-- A comparison's bit, widened with zeros to 32 bits and read as a signed integer, is the bit as a natural number. -/
theorem bit_toInt (c : BitVec 1) : (c.setWidth 32).toInt = (c.toNat : ℤ) := by
  rcases BitVec.eq_zero_or_eq_one c with h | h <;> subst h <;> decide

/-- x · logistic x of a vector, at an index. -/
theorem silu_apply {s : Shape} (v : FVec Ideal s .f32) (i : s.Idx) :
    mulf v (logistic v) i = Cert.EdgeNet.silu (v i) := rfl

/-! ### The values the body reads first: casts to the same shape and narrowings, all the identity -/

theorem pay2_apply (x0 : Vec Ideal S8192x64 .bf16) (i : S8192x64.Idx) : k0_pay2 x0 i = x0 i :=
  congrFun (shapeCast_self x0 shapeCasts_S8192x64_S8192x64) i
theorem pay3_apply (x1 : Vec Ideal S8192x1 .f32) (i : S8192x1.Idx) : k0_pay3 x1 i = x1 i :=
  congrFun (shapeCast_self x1 shapeCasts_S8192x1_S8192x1) i
theorem pay4_apply (x6 : Vec Ideal S64x64 .f32) (i : S64x64.Idx) : k0_pay4 x6 i = x6 i :=
  congrFun (shapeCast_self x6 shapeCasts_S64x64_S64x64) i
theorem pay5_apply (x7 : Vec Ideal S4x64 .f32) (i : S4x64.Idx) : k0_pay5 x7 i = x7 i :=
  congrFun (shapeCast_self x7 shapeCasts_S4x64_S4x64) i
theorem pay6_apply (x8 : Vec Ideal S1x64 .f32) (i : S1x64.Idx) : k0_pay6 x8 i = x8 i :=
  congrFun (shapeCast_self x8 shapeCasts_S1x64_S1x64) i
theorem pay7_apply (x9 : Vec Ideal S64x64 .f32) (i : S64x64.Idx) : k0_pay7 x9 i = x9 i := rfl
theorem pay8_apply (x10 : Vec Ideal S1x64 .f32) (i : S1x64.Idx) : k0_pay8 x10 i = x10 i :=
  congrFun (shapeCast_self x10 shapeCasts_S1x64_S1x64) i

/-! ### The radial features -/

/-- The four radial features of edge r: the length against the first radial weight row plus its bias, through
    x · logistic x, against the second radial weight plus its bias, through x · logistic x again. -/
theorem rad_entry (x1 : Vec Ideal S8192x1 .f32) (x2 x3 : Vec Ideal S1x16 .f32) (x4 : Vec Ideal S16x4 .f32)
    (x5 : Vec Ideal S1x4 .f32) (r : Fin 8192) (q : Fin 4) :
    k0_pay9 x1 x2 x3 x4 x5 (ix2 r q)
      = Cert.EdgeNet.rad (x1 (ix2 r 0)) (fun p => x2 (ix2 0 p)) (fun p => x3 (ix2 0 p)) (fun p q => x4 (ix2 p q))
          (fun q => x5 (ix2 0 q)) q := by
  -- the first radial layer before its activation
  let a : FVec Ideal S8192x16 .f32 :=
    addf (mulf (broadcastTo S8192x16 (k0_pay3 x1) broadcasts_S8192x1_S8192x16)
        (broadcastTo S8192x16 x2 broadcasts_S1x16_S8192x16))
      (broadcastTo S8192x16 (shapeCast S1x16 x3 shapeCasts_S1x16_S1x16) broadcasts_S1x16_S8192x16)
  have ha : ∀ p : Fin 16, a (ix2 r p) = x1 (ix2 r 0) * x2 (ix2 0 p) + x3 (ix2 0 p) := fun p => by
    show broadcastTo S8192x16 (shapeCast S8192x1 x1 shapeCasts_S8192x1_S8192x1) broadcasts_S8192x1_S8192x16 (ix2 r p)
          * broadcastTo S8192x16 x2 broadcasts_S1x16_S8192x16 (ix2 r p)
        + broadcastTo S8192x16 (shapeCast S1x16 x3 shapeCasts_S1x16_S1x16) broadcasts_S1x16_S8192x16 (ix2 r p) = _
    rw [shapeCast_self, shapeCast_self, Cert.LibSoftmaxRow.broadcastTo_a1_ab_apply, broadcastTo_1b_ab_apply,
      broadcastTo_1b_ab_apply]
  have hs : ∀ p : Fin 16, (truncf .bf16 (mulf a (logistic a)) bitsLt_bf16_f32 : FVec Ideal S8192x16 .bf16) (ix2 r p)
      = Cert.EdgeNet.hid (x1 (ix2 r 0)) (fun p => x2 (ix2 0 p)) (fun p => x3 (ix2 0 p)) p := fun p => by
    show Cert.EdgeNet.silu (a (ix2 r p)) = _
    rw [ha p]
    rfl
  show Cert.EdgeNet.silu
      (FloatOps.matmul dot_S8192x16_S16x4_S8192x4_1_0_0_1_n_n none
          (truncf .bf16 (mulf a (logistic a)) bitsLt_bf16_f32 : FVec Ideal S8192x16 .bf16)
          (truncf .bf16 x4 bitsLt_bf16_f32 : FVec Ideal S16x4 .bf16)
          (constant (F := Ideal) S8192x4 .f32 0x00000000#32) (ix2 r q)
        + broadcastTo S8192x4 (shapeCast S1x4 x5 shapeCasts_S1x4_S1x4) broadcasts_S1x4_S8192x4 (ix2 r q)) = _
  rw [mm_entry _ dot_16_4, shapeCast_self, broadcastTo_1b_ab_apply]
  refine congrArg Cert.EdgeNet.silu (congrArg (· + x5 (ix2 0 q)) (Finset.sum_congr rfl fun p _ => ?_))
  rw [hs p]
  rfl

/-! ### The two dense layers and the cutoff, for any values of the operands the store's payload reads -/

/-- The stored payload at (r, o), over the eight values it reads: the second dense layer of the first, through
    x · logistic x each, times the cutoff of the edge's length. -/
theorem pay1_entry (v1 : FVec Ideal S8192x64 .bf16) (v3 : FVec Ideal S8192x1 .f32) (v13 : FVec Ideal S64x64 .bf16)
    (v16 : FVec Ideal S4x64 .bf16) (v18 : FVec Ideal S1x64 .f32) (v20 : FVec Ideal S64x64 .bf16)
    (v22 : FVec Ideal S1x64 .f32) (v35 : FVec Ideal S8192x4 .f32) (r : Fin 8192) (o : Fin 64) :
    k0_pay1 v1 v3 v13 v16 v18 v20 v22 v35 (ix2 r o)
      = Cert.EdgeNet.h2
          (Cert.EdgeNet.h1 (fun k => v1 (ix2 r k)) (fun q => v35 (ix2 r q)) (fun k j => v13 (ix2 k j))
            (fun q j => v16 (ix2 q j)) (fun j => v18 (ix2 0 j)))
          (fun j o => v20 (ix2 j o)) (fun o => v22 (ix2 0 o)) o
        * Cert.EdgeNet.cut (v3 (ix2 r 0)) := by
  -- the first dense layer before its activation
  let a1 : FVec Ideal S8192x64 .f32 :=
    addf (addf (matmul dot_S8192x64_S64x64_S8192x64_1_0_0_1_n_n none v1 v13 (constant S8192x64 .f32 0x00000000#32))
        (matmul dot_S8192x4_S4x64_S8192x64_1_0_0_1_n_n none
          (truncf .bf16 v35 bitsLt_bf16_f32 : FVec Ideal S8192x4 .bf16) v16 (constant S8192x64 .f32 0x00000000#32)))
      (broadcastTo S8192x64 v18 broadcasts_S1x64_S8192x64)
  have h1e : ∀ j : Fin 64, (truncf .bf16 (mulf a1 (logistic a1)) bitsLt_bf16_f32 : FVec Ideal S8192x64 .bf16) (ix2 r j)
      = Cert.EdgeNet.h1 (fun k => v1 (ix2 r k)) (fun q => v35 (ix2 r q)) (fun k j => v13 (ix2 k j))
          (fun q j => v16 (ix2 q j)) (fun j => v18 (ix2 0 j)) j := fun j => by
    show Cert.EdgeNet.silu
        ((FloatOps.matmul dot_S8192x64_S64x64_S8192x64_1_0_0_1_n_n none v1 v13
              (constant (F := Ideal) S8192x64 .f32 0x00000000#32) (ix2 r j)
            + FloatOps.matmul dot_S8192x4_S4x64_S8192x64_1_0_0_1_n_n none
              (truncf .bf16 v35 bitsLt_bf16_f32 : FVec Ideal S8192x4 .bf16) v16
              (constant (F := Ideal) S8192x64 .f32 0x00000000#32) (ix2 r j))
          + broadcastTo S8192x64 v18 broadcasts_S1x64_S8192x64 (ix2 r j)) = _
    rw [mm_entry _ dot_64_64, mm_entry _ dot_4_64, broadcastTo_1b_ab_apply]
    rfl
  -- the second dense layer before its activation
  let a2 : FVec Ideal S8192x64 .f32 :=
    addf (matmul dot_S8192x64_S64x64_S8192x64_1_0_0_1_n_n none
        (truncf .bf16 (mulf a1 (logistic a1)) bitsLt_bf16_f32 : FVec Ideal S8192x64 .bf16) v20
        (constant S8192x64 .f32 0x00000000#32))
      (broadcastTo S8192x64 v22 broadcasts_S1x64_S8192x64)
  have h2e : mulf a2 (logistic a2) (ix2 r o)
      = Cert.EdgeNet.h2
          (Cert.EdgeNet.h1 (fun k => v1 (ix2 r k)) (fun q => v35 (ix2 r q)) (fun k j => v13 (ix2 k j))
            (fun q j => v16 (ix2 q j)) (fun j => v18 (ix2 0 j)))
          (fun j o => v20 (ix2 j o)) (fun o => v22 (ix2 0 o)) o := by
    show Cert.EdgeNet.silu
        (FloatOps.matmul dot_S8192x64_S64x64_S8192x64_1_0_0_1_n_n none
            (truncf .bf16 (mulf a1 (logistic a1)) bitsLt_bf16_f32 : FVec Ideal S8192x64 .bf16) v20
            (constant (F := Ideal) S8192x64 .f32 0x00000000#32) (ix2 r o)
          + broadcastTo S8192x64 v22 broadcasts_S1x64_S8192x64 (ix2 r o)) = _
    rw [mm_entry _ dot_64_64, broadcastTo_1b_ab_apply]
    refine congrArg Cert.EdgeNet.silu (congrArg (· + v22 (ix2 0 o)) (Finset.sum_congr rfl fun j _ => ?_))
    rw [h1e j]
  -- the cutoff column
  let c : FVec Ideal S8192x1 .f32 :=
    mulf
      (minimumf (broadcast S8192x1 (Scalar.ofBits (F := Ideal) .f32 0x3F800000#32))
        (maximumf (broadcast S8192x1 (Scalar.ofBits (F := Ideal) .f32 0x00000000#32))
          (subf (broadcast S8192x1 (Scalar.ofBits (F := Ideal) .f32 0x3F800000#32))
            (mulf (divf v3 (broadcast S8192x1 (Scalar.ofBits (F := Ideal) .f32 0x41200000#32)))
              (divf v3 (broadcast S8192x1 (Scalar.ofBits (F := Ideal) .f32 0x41200000#32)))))))
      (sitofp .f32
        (extui 32 (cmpf .olt v3 (broadcast S8192x1 (Scalar.ofBits (F := Ideal) .f32 0x41200000#32))) natLt_1_32))
  have hc : c (ix2 r (0 : Fin 1)) = Cert.EdgeNet.cut (v3 (ix2 r 0)) := by
    show min Cert.EdgeNet.one
          (max Cert.EdgeNet.zero
            (Cert.EdgeNet.one
              - Ideal.div (v3 (ix2 r 0)) Cert.EdgeNet.ten * Ideal.div (v3 (ix2 r 0)) Cert.EdgeNet.ten))
        * ((((Ideal.cmp .olt (v3 (ix2 r 0)) Cert.EdgeNet.ten).setWidth 32).toInt : ℝ) : EReal) = _
    rw [bit_toInt, Int.cast_natCast]
    rfl
  show mulf a2 (logistic a2) (ix2 r o) * broadcastTo S8192x64 c broadcasts_S8192x1_S8192x64 (ix2 r o) = _
  rw [Cert.LibSoftmaxRow.broadcastTo_a1_ab_apply, h2e, hc]

/-! ### The message -/

/-- The edge network's stored value at (r, o) is the specification's message of edge r, entry o. -/
theorem edge_entry (x0 : Vec Ideal S8192x64 .bf16) (x1 : Vec Ideal S8192x1 .f32) (x2 x3 : Vec Ideal S1x16 .f32)
    (x4 : Vec Ideal S16x4 .f32) (x5 : Vec Ideal S1x4 .f32) (x6 : Vec Ideal S64x64 .f32) (x7 : Vec Ideal S4x64 .f32)
    (x8 : Vec Ideal S1x64 .f32) (x9 : Vec Ideal S64x64 .f32) (x10 : Vec Ideal S1x64 .f32) (r : Fin 8192) (o : Fin 64) :
    k0_pay1 (k0_pay2 x0) (k0_pay3 x1) (k0_pay4 x6) (k0_pay5 x7) (k0_pay6 x8) (k0_pay7 x9) (k0_pay8 x10)
        (k0_pay9 x1 x2 x3 x4 x5) (ix2 r o)
      = Cert.EdgeNet.msg (fun k => x0 (ix2 r k)) (x1 (ix2 r 0)) (fun p => x2 (ix2 0 p)) (fun p => x3 (ix2 0 p))
          (fun p q => x4 (ix2 p q)) (fun q => x5 (ix2 0 q)) (fun k j => x6 (ix2 k j)) (fun q j => x7 (ix2 q j))
          (fun j => x8 (ix2 0 j)) (fun j o => x9 (ix2 j o)) (fun o => x10 (ix2 0 o)) o := by
  refine (pay1_entry _ _ _ _ _ _ _ _ r o).trans ?_
  have e2 : (fun k => k0_pay2 x0 (ix2 r k)) = fun k => x0 (ix2 r k) := funext fun k => pay2_apply x0 _
  have e9 : (fun q => k0_pay9 x1 x2 x3 x4 x5 (ix2 r q))
      = Cert.EdgeNet.rad (x1 (ix2 r 0)) (fun p => x2 (ix2 0 p)) (fun p => x3 (ix2 0 p)) (fun p q => x4 (ix2 p q))
          (fun q => x5 (ix2 0 q)) := funext fun q => rad_entry x1 x2 x3 x4 x5 r q
  have e4 : (fun k j => k0_pay4 x6 (ix2 k j)) = fun k j => x6 (ix2 k j) :=
    funext fun k => funext fun j => pay4_apply x6 _
  have e5 : (fun q j => k0_pay5 x7 (ix2 q j)) = fun q j => x7 (ix2 q j) :=
    funext fun q => funext fun j => pay5_apply x7 _
  have e6 : (fun j => k0_pay6 x8 (ix2 0 j)) = fun j => x8 (ix2 0 j) := funext fun j => pay6_apply x8 _
  have e7 : (fun j o => k0_pay7 x9 (ix2 j o)) = fun j o => x9 (ix2 j o) :=
    funext fun j => funext fun o => pay7_apply x9 _
  have e8 : (fun o => k0_pay8 x10 (ix2 0 o)) = fun o => x10 (ix2 0 o) := funext fun o => pay8_apply x10 _
  rw [e2, e9, e4, e5, e6, e7, e8, pay3_apply]
  rfl

end Cert.KernelIdeal.Entry

end
-- ==== Proof.Region0.lean ====
/-
  The edge network's region, read as one function.  Its grid has 98 points; point t loads rows
  8192·t … 8192·t + 8191 of the (padded) gathered source features and of the (padded) edge-length column, and the
  whole of every weight and bias, and writes the same rows of the message array.  So row e of the message array is
  the edge network's message for the features and the length found in row e.
-/
import proofs.«148534_j72164040507424_2_alg».proof.Proof.Gen.KernelIdeal.Frame
import proofs.«148534_j72164040507424_2_alg».proof.Proof.Spec
import proofs.«148534_j72164040507424_2_alg».proof.Proof.KernelEntry
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The message array as one function of the region's eleven arrays: row (i 0) of the features and of the length
    column through the edge network, entry (i 1). -/
def G (xs : S802816x64.Idx → EReal) (d : S802816x1.Idx → EReal) (wr1 br1 : S1x16.Idx → EReal) (wr2 : S16x4.Idx → EReal)
    (br2 : S1x4.Idx → EReal) (w1a : S64x64.Idx → EReal) (w1b : S4x64.Idx → EReal) (b1 : S1x64.Idx → EReal)
    (w2 : S64x64.Idx → EReal) (b2 : S1x64.Idx → EReal) : S802816x64.Idx → EReal :=
  fun i => Cert.EdgeNet.msg (fun k => xs (ix2 ⟨(i 0).val, idx2_lt0 i⟩ k)) (d (ix2 ⟨(i 0).val, idx2_lt0 i⟩ 0))
    (fun p => wr1 (ix2 0 p)) (fun p => br1 (ix2 0 p)) (fun p q => wr2 (ix2 p q)) (fun q => br2 (ix2 0 q))
    (fun k j => w1a (ix2 k j)) (fun q j => w1b (ix2 q j)) (fun j => b1 (ix2 0 j)) (fun j o => w2 (ix2 j o))
    (fun o => b2 (ix2 0 o)) ⟨(i 1).val, idx2_lt1 i⟩

/-- The printed index maps over the grid, one window at a time: the two row-blocked inputs and the output move with
    the point, every weight and bias stays at block (0, 0). -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

variable (V : (c : Dev nD) → (b : Ref sig .tc) → Buf (Elt Ideal) ((c : Thread nD τ).loc b))

set_option maxHeartbeats 1600000 in
/-- What point t writes back is block t of the one function of the arrays as the region finds them. -/
theorem flushed_eq (c : Dev nD) (t : Fin cfg0.N) :
    (dat0 V c).flushed 11 t = ((cfg0.win 11).blk t).view.read (Elt Ideal)
      (G (V c main_v29) (V c main_v34) (V c main_arg9) (V c main_v37) (V c main_arg11) (V c main_v38) (V c main_v35)
        (V c main_v36) (V c main_v39) (V c main_arg7) (V c main_v40)) := by
  show (cfg0.win 11).cut (grid0.coords t) ((dat0 V c).after 11 t) = _
  rw [after0_11]
  unfold out0_11
  rw [View.canon_unit_zero hz]
  simp only [View.ld_unit_zero (S := S8192x64) hz, View.ld_unit_zero (S := S8192x1) hz, View.ld_unit_zero (S := S1x16) hz,
    View.ld_unit_zero (S := S16x4) hz, View.ld_unit_zero (S := S1x4) hz, View.ld_unit_zero (S := S64x64) hz,
    View.ld_unit_zero (S := S4x64) hz, View.ld_unit_zero (S := S1x64) hz]
  obtain ⟨e0_0, e0_1⟩ := idx0 t
  obtain ⟨e1_0, e1_1⟩ := idx1 t
  obtain ⟨e2_0, e2_1⟩ := idx2 t
  obtain ⟨e3_0, e3_1⟩ := idx3 t
  obtain ⟨e4_0, e4_1⟩ := idx4 t
  obtain ⟨e5_0, e5_1⟩ := idx5 t
  obtain ⟨e6_0, e6_1⟩ := idx6 t
  obtain ⟨e7_0, e7_1⟩ := idx7 t
  obtain ⟨e8_0, e8_1⟩ := idx8 t
  obtain ⟨e9_0, e9_1⟩ := idx9 t
  obtain ⟨e10_0, e10_1⟩ := idx10 t
  obtain ⟨e11_0, e11_1⟩ := idx11 t
  funext j
  obtain ⟨r, o, rfl⟩ : ∃ (r : Fin 8192) (o : Fin 64), j = ix2 r o := ⟨j 0, j 1, eq_ix2 j⟩
  show k0_pay1 (k0_pay2 (iblk0 V c 0 t)) (k0_pay3 (iblk0 V c 1 t)) (k0_pay4 (iblk0 V c 6 t)) (k0_pay5 (iblk0 V c 7 t))
      (k0_pay6 (iblk0 V c 8 t)) (k0_pay7 (iblk0 V c 9 t)) (k0_pay8 (iblk0 V c 10 t))
      (k0_pay9 (iblk0 V c 1 t) (iblk0 V c 2 t) (iblk0 V c 3 t) (iblk0 V c 4 t) (iblk0 V c 5 t)) (ix2 r o)
    = G (V c main_v29) (V c main_v34) (V c main_arg9) (V c main_v37) (V c main_arg11) (V c main_v38) (V c main_v35)
        (V c main_v36) (V c main_v39) (V c main_arg7) (V c main_v40) (((cfg0.win 11).blk t).view.emb (ix2 r o))
  refine (Cert.KernelIdeal.Entry.edge_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) r o).trans ?_
  unfold G
  have hrow0 : ∀ k : Fin 64, ((cfg0.win 0).blk t).view.emb (ix2 r k) = ix2 ⟨((((cfg0.win 11).blk t).view.emb (ix2 r o)) 0).val, idx2_lt0 _⟩ k := fun k => funext fun a => Fin.ext (by
    match a with
    | ⟨0, _⟩ => show win0_0.index t (0 : Fin 2) * 8192 + 1 * r.val = win0_11.index t (0 : Fin 2) * 8192 + 1 * r.val; omega
    | ⟨1, _⟩ => show win0_0.index t (1 : Fin 2) * 64 + 1 * k.val = k.val; omega)
  have hrow1 : ((cfg0.win 1).blk t).view.emb (ix2 r (0 : Fin 1)) = ix2 ⟨((((cfg0.win 11).blk t).view.emb (ix2 r o)) 0).val, idx2_lt0 _⟩ (0 : Fin 1) := funext fun a => Fin.ext (by
    match a with
    | ⟨0, _⟩ => show win0_1.index t (0 : Fin 2) * 8192 + 1 * r.val = win0_11.index t (0 : Fin 2) * 8192 + 1 * r.val; omega
    | ⟨1, _⟩ => show win0_1.index t (1 : Fin 2) * 1 + 1 * 0 = 0; omega)
  have hw2 : ∀ (p : Fin 1) (q : Fin 16), ((cfg0.win 2).blk t).view.emb (ix2 p q) = ix2 p q := fun p q => funext fun a => Fin.ext (by
    match a with
    | ⟨0, _⟩ => show win0_2.index t (0 : Fin 2) * 1 + 1 * p.val = p.val; omega
    | ⟨1, _⟩ => show win0_2.index t (1 : Fin 2) * 16 + 1 * q.val = q.val; omega)
  have hw3 : ∀ (p : Fin 1) (q : Fin 16), ((cfg0.win 3).blk t).view.emb (ix2 p q) = ix2 p q := fun p q => funext fun a => Fin.ext (by
    match a with
    | ⟨0, _⟩ => show win0_3.index t (0 : Fin 2) * 1 + 1 * p.val = p.val; omega
    | ⟨1, _⟩ => show win0_3.index t (1 : Fin 2) * 16 + 1 * q.val = q.val; omega)
  have hw4 : ∀ (p : Fin 16) (q : Fin 4), ((cfg0.win 4).blk t).view.emb (ix2 p q) = ix2 p q := fun p q => funext fun a => Fin.ext (by
    match a with
    | ⟨0, _⟩ => show win0_4.index t (0 : Fin 2) * 16 + 1 * p.val = p.val; omega
    | ⟨1, _⟩ => show win0_4.index t (1 : Fin 2) * 4 + 1 * q.val = q.val; omega)
  have hw5 : ∀ (p : Fin 1) (q : Fin 4), ((cfg0.win 5).blk t).view.emb (ix2 p q) = ix2 p q := fun p q => funext fun a => Fin.ext (by
    match a with
    | ⟨0, _⟩ => show win0_5.index t (0 : Fin 2) * 1 + 1 * p.val = p.val; omega
    | ⟨1, _⟩ => show win0_5.index t (1 : Fin 2) * 4 + 1 * q.val = q.val; omega)
  have hw6 : ∀ (p : Fin 64) (q : Fin 64), ((cfg0.win 6).blk t).view.emb (ix2 p q) = ix2 p q := fun p q => funext fun a => Fin.ext (by
    match a with
    | ⟨0, _⟩ => show win0_6.index t (0 : Fin 2) * 64 + 1 * p.val = p.val; omega
    | ⟨1, _⟩ => show win0_6.index t (1 : Fin 2) * 64 + 1 * q.val = q.val; omega)
  have hw7 : ∀ (p : Fin 4) (q : Fin 64), ((cfg0.win 7).blk t).view.emb (ix2 p q) = ix2 p q := fun p q => funext fun a => Fin.ext (by
    match a with
    | ⟨0, _⟩ => show win0_7.index t (0 : Fin 2) * 4 + 1 * p.val = p.val; omega
    | ⟨1, _⟩ => show win0_7.index t (1 : Fin 2) * 64 + 1 * q.val = q.val; omega)
  have hw8 : ∀ (p : Fin 1) (q : Fin 64), ((cfg0.win 8).blk t).view.emb (ix2 p q) = ix2 p q := fun p q => funext fun a => Fin.ext (by
    match a with
    | ⟨0, _⟩ => show win0_8.index t (0 : Fin 2) * 1 + 1 * p.val = p.val; omega
    | ⟨1, _⟩ => show win0_8.index t (1 : Fin 2) * 64 + 1 * q.val = q.val; omega)
  have hw9 : ∀ (p : Fin 64) (q : Fin 64), ((cfg0.win 9).blk t).view.emb (ix2 p q) = ix2 p q := fun p q => funext fun a => Fin.ext (by
    match a with
    | ⟨0, _⟩ => show win0_9.index t (0 : Fin 2) * 64 + 1 * p.val = p.val; omega
    | ⟨1, _⟩ => show win0_9.index t (1 : Fin 2) * 64 + 1 * q.val = q.val; omega)
  have hw10 : ∀ (p : Fin 1) (q : Fin 64), ((cfg0.win 10).blk t).view.emb (ix2 p q) = ix2 p q := fun p q => funext fun a => Fin.ext (by
    match a with
    | ⟨0, _⟩ => show win0_10.index t (0 : Fin 2) * 1 + 1 * p.val = p.val; omega
    | ⟨1, _⟩ => show win0_10.index t (1 : Fin 2) * 64 + 1 * q.val = q.val; omega)
  have ho : (⟨((((cfg0.win 11).blk t).view.emb (ix2 r o)) 1).val, idx2_lt1 _⟩ : Fin 64) = o := Fin.ext (by
    show win0_11.index t (1 : Fin 2) * 64 + 1 * o.val = o.val; omega)
  rw [ho]
  have h0 : (fun k : Fin 64 => iblk0 V c 0 t (ix2 r k)) = fun k => V c main_v29 (ix2 ⟨((((cfg0.win 11).blk t).view.emb (ix2 r o)) 0).val, idx2_lt0 _⟩ k) :=
    funext fun k => congrArg (V c main_v29) (hrow0 k)
  have h1 : iblk0 V c 1 t (ix2 r 0) = V c main_v34 (ix2 ⟨((((cfg0.win 11).blk t).view.emb (ix2 r o)) 0).val, idx2_lt0 _⟩ 0) := congrArg (V c main_v34) hrow1
  have h2 : (fun p : Fin 16 => iblk0 V c 2 t (ix2 0 p)) = fun p => V c main_arg9 (ix2 0 p) := funext fun p => congrArg (V c main_arg9) (hw2 0 p)
  have h3 : (fun p : Fin 16 => iblk0 V c 3 t (ix2 0 p)) = fun p => V c main_v37 (ix2 0 p) := funext fun p => congrArg (V c main_v37) (hw3 0 p)
  have h4 : (fun (p : Fin 16) (q : Fin 4) => iblk0 V c 4 t (ix2 p q)) = fun p q => V c main_arg11 (ix2 p q) := funext fun p => funext fun q => congrArg (V c main_arg11) (hw4 p q)
  have h5 : (fun q : Fin 4 => iblk0 V c 5 t (ix2 0 q)) = fun q => V c main_v38 (ix2 0 q) := funext fun q => congrArg (V c main_v38) (hw5 0 q)
  have h6 : (fun (k j : Fin 64) => iblk0 V c 6 t (ix2 k j)) = fun k j => V c main_v35 (ix2 k j) := funext fun k => funext fun j => congrArg (V c main_v35) (hw6 k j)
  have h7 : (fun (q : Fin 4) (j : Fin 64) => iblk0 V c 7 t (ix2 q j)) = fun q j => V c main_v36 (ix2 q j) := funext fun q => funext fun j => congrArg (V c main_v36) (hw7 q j)
  have h8 : (fun j : Fin 64 => iblk0 V c 8 t (ix2 0 j)) = fun j => V c main_v39 (ix2 0 j) := funext fun j => congrArg (V c main_v39) (hw8 0 j)
  have h9 : (fun (j o : Fin 64) => iblk0 V c 9 t (ix2 j o)) = fun j o => V c main_arg7 (ix2 j o) := funext fun j => funext fun o => congrArg (V c main_arg7) (hw9 j o)
  have h10 : (fun o : Fin 64 => iblk0 V c 10 t (ix2 0 o)) = fun o => V c main_v40 (ix2 0 o) := funext fun o => congrArg (V c main_v40) (hw10 0 o)
  rw [h0, h1, h2, h3, h4, h5, h6, h7, h8, h9, h10]

/-- An index of the message array is in point t's block iff each coordinate is in the block's range on its axis. -/
theorem mem_blk (t : Fin cfg0.N) (i : S802816x64.Idx) :
    i ∈ ((cfg0.win 11).blk t).view.set ↔ ∀ a : Fin 2, win0_11.index t a * S8192x64.size a ≤ (i a).val ∧ (i a).val < win0_11.index t a * S8192x64.size a + S8192x64.size a := by
  show i ∈ ((View.whole main_v42).slice (win0_11.rect t)).set ↔ _
  rw [View.set_slice_whole, Rect.mem_set_unit]
  exact Iff.rfl

/-- The 98 blocks of 8192 rows tile the 802816 rows: row e is in the block of point e / 8192. -/
theorem cover (i : S802816x64.Idx) : ∃ t : Fin cfg0.N, (cfg0.win 11).flush t = true ∧ i ∈ ((cfg0.win 11).blk t).view.set := by
  have hi0 : (i 0).val < 802816 := (i 0).isLt
  have hi1 : (i 1).val < 64 := (i 1).isLt
  have hN : grid0.N = 98 := N_0
  let t : Fin cfg0.N := ⟨(i 0).val / 8192, by show (i 0).val / 8192 < grid0.N; omega⟩
  obtain ⟨e0_0, e0_1⟩ := idx0 t
  obtain ⟨e1_0, e1_1⟩ := idx1 t
  obtain ⟨e2_0, e2_1⟩ := idx2 t
  obtain ⟨e3_0, e3_1⟩ := idx3 t
  obtain ⟨e4_0, e4_1⟩ := idx4 t
  obtain ⟨e5_0, e5_1⟩ := idx5 t
  obtain ⟨e6_0, e6_1⟩ := idx6 t
  obtain ⟨e7_0, e7_1⟩ := idx7 t
  obtain ⟨e8_0, e8_1⟩ := idx8 t
  obtain ⟨e9_0, e9_1⟩ := idx9 t
  obtain ⟨e10_0, e10_1⟩ := idx10 t
  obtain ⟨e11_0, e11_1⟩ := idx11 t
  have ht : t.val = (i 0).val / 8192 := rfl
  refine ⟨t, flush0_11 t, ?_⟩
  rw [mem_blk]
  intro a
  match a with
  | ⟨0, _⟩ => show win0_11.index t (0 : Fin 2) * 8192 ≤ (i 0).val ∧ (i 0).val < win0_11.index t (0 : Fin 2) * 8192 + 8192; omega
  | ⟨1, _⟩ => show win0_11.index t (1 : Fin 2) * 64 ≤ (i 1).val ∧ (i 1).val < win0_11.index t (1 : Fin 2) * 64 + 64; omega

/-- The message array after the region: the one function of the eleven arrays as the region finds them. -/
theorem final (c : Dev nD) : (dat0 V c).arrAt 11 cfg0.N
    = G (V c main_v29) (V c main_v34) (V c main_arg9) (V c main_v37) (V c main_arg11) (V c main_v38) (V c main_v35)
        (V c main_v36) (V c main_v39) (V c main_arg7) (V c main_v40) :=
  (dat0 V c).arrAt_eq_of_cover 11 _ (fun t _ => flushed_eq V c t) cover

end Cert.KernelIdeal.Region0

end
-- ==== Proof.Region1.lean ====
/-
  The node projection's region, read as one function.  Its grid has ten points; point t loads rows
  5000·t … 5000·t + 4999 of the node features and of the aggregated messages, the whole projection weight and the
  bias row, and writes the same rows of the result.  So the result array is, row by row, the row of features against
  the weight, plus the bias, plus the row of aggregated messages.
-/
import proofs.«148534_j72164040507424_2_alg».proof.Proof.Gen.KernelIdeal.Frame
import proofs.«148534_j72164040507424_2_alg».proof.Proof.Spec
import proofs.«148534_j72164040507424_2_alg».proof.Proof.KernelEntry
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The projection region's result as one function of its four arrays: row (i 0) of the features against the
    projection weight, the bias, and row (i 0) of what was aggregated. -/
def G (x a : S50000x64.Idx → EReal) (wp : S64x64.Idx → EReal) (bp : S1x64.Idx → EReal) : S50000x64.Idx → EReal :=
  fun i => Cert.EdgeNet.node (fun k => x (ix2 ⟨(i 0).val, idx2_lt0 i⟩ k)) (fun k o => wp (ix2 k o)) (fun o => bp (ix2 0 o))
    (fun o => a (ix2 ⟨(i 0).val, idx2_lt0 i⟩ o)) ⟨(i 1).val, idx2_lt1 i⟩

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

theorem flushed_eq (c : Dev nD) (t : Fin cfg1.N) :
    (dat1 V c).flushed 4 t = ((cfg1.win 4).blk t).view.read (Elt Ideal) (G (V c main_arg0) (V c main_v46) (V c main_arg3) (V c main_v41)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts t
  funext j
  obtain ⟨r, o, rfl⟩ : ∃ (r : Fin 5000) (o : Fin 64), j = ix2 r o := ⟨j 0, j 1, eq_ix2 j⟩
  show k1_pay1 (iblk1 V c 0 t) (iblk1 V c 2 t) (iblk1 V c 3 t) (iblk1 V c 1 t) (ix2 r o)
    = G (V c main_arg0) (V c main_v46) (V c main_arg3) (V c main_v41) (((cfg1.win 4).blk t).view.emb (ix2 r o))
  refine (Cert.KernelIdeal.Entry.node_entry _ _ _ _ r o).trans ?_
  unfold G
  have hrow : ∀ k : Fin 64, ((cfg1.win 0).blk t).view.emb (ix2 r k)
      = ix2 ⟨((((cfg1.win 4).blk t).view.emb (ix2 r o)) 0).val, idx2_lt0 _⟩ k := fun k => funext fun a => Fin.ext (by
    match a with
    | ⟨0, _⟩ => show win1_0.index t (0 : Fin 2) * 5000 + 1 * r.val = win1_4.index t (0 : Fin 2) * 5000 + 1 * r.val; omega
    | ⟨1, _⟩ => show win1_0.index t (1 : Fin 2) * 64 + 1 * k.val = k.val; omega)
  have hrow' : ∀ k : Fin 64, ((cfg1.win 1).blk t).view.emb (ix2 r k)
      = ix2 ⟨((((cfg1.win 4).blk t).view.emb (ix2 r o)) 0).val, idx2_lt0 _⟩ k := fun k => funext fun a => Fin.ext (by
    match a with
    | ⟨0, _⟩ => show win1_1.index t (0 : Fin 2) * 5000 + 1 * r.val = win1_4.index t (0 : Fin 2) * 5000 + 1 * r.val; omega
    | ⟨1, _⟩ => show win1_1.index t (1 : Fin 2) * 64 + 1 * k.val = k.val; omega)
  have hw : ∀ (k j : Fin 64), ((cfg1.win 2).blk t).view.emb (ix2 k j) = ix2 k j := fun k j => funext fun a => Fin.ext (by
    match a with
    | ⟨0, _⟩ => show win1_2.index t (0 : Fin 2) * 64 + 1 * k.val = k.val; omega
    | ⟨1, _⟩ => show win1_2.index t (1 : Fin 2) * 64 + 1 * j.val = j.val; omega)
  have hb : ∀ (j : Fin 64), ((cfg1.win 3).blk t).view.emb (ix2 (0 : Fin 1) j) = ix2 (0 : Fin 1) j := fun j => funext fun a => Fin.ext (by
    match a with
    | ⟨0, _⟩ => show win1_3.index t (0 : Fin 2) * 1 + 1 * 0 = 0; omega
    | ⟨1, _⟩ => show win1_3.index t (1 : Fin 2) * 64 + 1 * j.val = j.val; omega)
  have ho : (⟨((((cfg1.win 4).blk t).view.emb (ix2 r o)) 1).val, idx2_lt1 _⟩ : Fin 64) = o := Fin.ext (by
    show win1_4.index t (1 : Fin 2) * 64 + 1 * o.val = o.val; omega)
  rw [ho]
  have h1 : (fun k : Fin 64 => iblk1 V c 0 t (ix2 r k)) = fun k => V c main_arg0 (ix2 ⟨((((cfg1.win 4).blk t).view.emb (ix2 r o)) 0).val, idx2_lt0 _⟩ k) :=
    funext fun k => congrArg (V c main_arg0) (hrow k)
  have h2 : (fun (k j : Fin 64) => iblk1 V c 2 t (ix2 k j)) = fun k j => V c main_arg3 (ix2 k j) :=
    funext fun k => funext fun j => congrArg (V c main_arg3) (hw k j)
  have h3 : (fun j : Fin 64 => iblk1 V c 3 t (ix2 0 j)) = fun j => V c main_v41 (ix2 0 j) :=
    funext fun j => congrArg (V c main_v41) (hb j)
  have h4 : (fun k : Fin 64 => iblk1 V c 1 t (ix2 r k)) = fun k => V c main_v46 (ix2 ⟨((((cfg1.win 4).blk t).view.emb (ix2 r o)) 0).val, idx2_lt0 _⟩ k) :=
    funext fun k => congrArg (V c main_v46) (hrow' k)
  rw [h1, h2, h3, h4]

/-- An index of the result array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v47).slice (win1_4.rect t)).set ↔ _
  rw [View.set_slice_whole, Rect.mem_set_unit]
  exact Iff.rfl

/-- The ten blocks of 5000 rows tile the 50000 rows: row n is in the block of point n / 5000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨e00, e01, e10, e11, e20, e21, e30, e31, e40, e41⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The result array after the region: the one function of the four arrays as the region finds them. -/
theorem final (c : Dev nD) : (dat1 V c).arrAt 4 cfg1.N = G (V c main_arg0) (V c main_v46) (V c main_arg3) (V c main_v41) :=
  (dat1 V c).arrAt_eq_of_cover 4 _ (fun t _ => flushed_eq V c t) cover

end Cert.KernelIdeal.Region1

end
-- ==== Proof.LibPlaneSum.lean ====
/-
  A rank-4 array [A, B, H, W] summed over its last two axes, and the logistic function spelt with words.

  * The indices of [A, B, H, W] whose first two coordinates are (a, b) are the H · W positions of one plane; numbered
    k = W · h + w they are h = k / W, w = k % W. A sum over that set of indices — what a reduction over the axes
    [2, 3] computes at (a, b), in any commutative additive monoid — is the sum over k : Fin (H · W) of the array at
    position k of the plane. The same numbering is the row-major re-laying [A, B, H, W] → [A, B, H · W].
  * The f32 word of 1.0 is the extended real 1, and 1 / (1 + exp (-x)) spelt with that word is the logistic function.
-/
import Idealize.ShloMosaic.PureOps.Ideal
import Idealize.ShloMosaic.PureOps.Ideal.Laws
import Idealize.ShloMosaic.Lib.ValueIdx

noncomputable section

namespace Cert.LibPlaneSum

open Idealize.ShloMosaic Idealize.ShloMosaic.ValueIdx

/-- Position k of the plane of (a, b): row k / W, column k % W. -/
def planeIdx {A B H W : ℕ} (a : Fin A) (b : Fin B) (k : Fin (H * W)) : (⟨4, ![A, B, H, W]⟩ : Shape).Idx :=
  have hW : 0 < W := Nat.pos_of_ne_zero fun h => by
    have hpos : 0 < H * W := Nat.lt_of_le_of_lt (Nat.zero_le _) k.isLt
    rw [h, Nat.mul_zero] at hpos; exact Nat.lt_irrefl _ hpos
  ix4 a b (⟨k.val / W, (Nat.div_lt_iff_lt_mul hW).mpr k.isLt⟩ : Fin H) (⟨k.val % W, Nat.mod_lt _ hW⟩ : Fin W)

theorem planeIdx_val0 {A B H W : ℕ} (a : Fin A) (b : Fin B) (k : Fin (H * W)) : (planeIdx a b k 0).val = a.val := rfl
theorem planeIdx_val1 {A B H W : ℕ} (a : Fin A) (b : Fin B) (k : Fin (H * W)) : (planeIdx a b k 1).val = b.val := rfl
theorem planeIdx_val2 {A B H W : ℕ} (a : Fin A) (b : Fin B) (k : Fin (H * W)) : (planeIdx a b k 2).val = k.val / W := rfl
theorem planeIdx_val3 {A B H W : ℕ} (a : Fin A) (b : Fin B) (k : Fin (H * W)) : (planeIdx a b k 3).val = k.val % W := rfl

/-- Position W · h + w of the plane is (h, w). -/
theorem pos_lt {H W : ℕ} (h : Fin H) (w : Fin W) : h.val * W + w.val < H * W := by
  have hh : h.val + 1 ≤ H := h.isLt
  calc h.val * W + w.val < h.val * W + W := Nat.add_lt_add_left w.isLt _
    _ = (h.val + 1) * W := (Nat.succ_mul _ _).symm
    _ ≤ H * W := Nat.mul_le_mul_right _ hh

theorem planeIdx_pos {A B H W : ℕ} (a : Fin A) (b : Fin B) (h : Fin H) (w : Fin W) :
    planeIdx a b (⟨h.val * W + w.val, pos_lt h w⟩ : Fin (H * W)) = ix4 a b h w := by
  have hW : 0 < W := Nat.lt_of_le_of_lt (Nat.zero_le _) w.isLt
  refine funext fun d => Fin.ext ?_
  match d with
  | ⟨0, _⟩ => rfl
  | ⟨1, _⟩ => rfl
  | ⟨2, _⟩ =>
    show (h.val * W + w.val) / W = h.val
    rw [Nat.mul_comm, Nat.mul_add_div hW, Nat.div_eq_of_lt w.isLt, Nat.add_zero]
  | ⟨3, _⟩ =>
    show (h.val * W + w.val) % W = w.val
    rw [Nat.mul_comm, Nat.mul_add_mod, Nat.mod_eq_of_lt w.isLt]

/-- A sum over the indices that a map keeping the first two coordinates sends to j is the sum over the plane of
    (j 0, j 1). `drop` is a reduction's index map over the axes [2, 3]. -/
theorem sum_plane {M : Type*} [AddCommMonoid M] {A B H W : ℕ} (X : (⟨4, ![A, B, H, W]⟩ : Shape).Idx → M)
    (drop : (⟨4, ![A, B, H, W]⟩ : Shape).Idx → (⟨2, ![A, B]⟩ : Shape).Idx)
    (h0 : ∀ i, (drop i 0).val = (i 0).val) (h1 : ∀ i, (drop i 1).val = (i 1).val)
    (j : (⟨2, ![A, B]⟩ : Shape).Idx) :
    ∑ i ∈ Finset.univ.filter (fun i => drop i = j), X i = ∑ k : Fin (H * W), X (planeIdx (j 0) (j 1) k) := by
  symm
  refine Finset.sum_bij (fun k _ => planeIdx (j 0) (j 1) k) (fun k _ => ?_) (fun k _ k' _ hk => ?_) (fun i hi => ?_)
    (fun _ _ => rfl)
  · refine Finset.mem_filter.mpr ⟨Finset.mem_univ _, funext fun d => Fin.ext ?_⟩
    match d with
    | ⟨0, _⟩ => exact h0 _
    | ⟨1, _⟩ => exact h1 _
  · have e2 : k.val / W = k'.val / W := congrArg (fun i => (i 2).val) hk
    have e3 : k.val % W = k'.val % W := congrArg (fun i => (i 3).val) hk
    refine Fin.ext ?_
    rw [← Nat.div_add_mod k.val W, ← Nat.div_add_mod k'.val W, e2, e3]
  · have hj : drop i = j := (Finset.mem_filter.mp hi).2
    have e0 : (j 0).val = (i 0).val := by rw [← hj]; exact h0 i
    have e1 : (j 1).val = (i 1).val := by rw [← hj]; exact h1 i
    have hi2 : i 2 = (⟨(i 2).val, (i 2).isLt⟩ : Fin H) := rfl
    refine ⟨(⟨(i 2).val * W + (i 3).val, pos_lt (⟨(i 2).val, (i 2).isLt⟩ : Fin H) (⟨(i 3).val, (i 3).isLt⟩ : Fin W)⟩ : Fin (H * W)),
      Finset.mem_univ _, ?_⟩
    refine (planeIdx_pos (j 0) (j 1) (⟨(i 2).val, (i 2).isLt⟩ : Fin H) (⟨(i 3).val, (i 3).isLt⟩ : Fin W)).trans
      (funext fun d => Fin.ext ?_)
    match d with
    | ⟨0, _⟩ => exact e0
    | ⟨1, _⟩ => exact e1
    | ⟨2, _⟩ => rfl
    | ⟨3, _⟩ => rfl

/-- The word of 1.0 is the extended real 1. -/
theorem ofBits_one_f32 : Ideal.ofBits .f32 0x3F800000#32 = 1 := by
  simp [Ideal.ofBits, Ideal.ieee, -EReal.coe_mul]; norm_num

/-- The logistic function spelt with the word of 1.0 for both ones, 1 / (1 + exp (-x)), is the logistic function. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.LibPlaneSum

end
-- ==== Proof.RefEntry.lean ====
/-
  The reference program's values read at one entry, on the extended reals.

  Each stage of the edge network is read at an index (e, o) of its array and identified with the corresponding
  entry-by-entry formula of the specification: the radial hidden units, the radial features, the two dense layers of
  the edge network, the cutoff, the message, and a node's result. The gathered source features, the edge lengths and
  the aggregated messages stay opaque arrays.
-/
import proofs.«148534_j72164040507424_2_alg».proof.Proof.Gen.ReferenceIdeal.Read
import proofs.«148534_j72164040507424_2_alg».proof.Proof.Spec
import proofs.«148534_j72164040507424_2_alg».proof.Proof.LibDense
import proofs.«148534_j72164040507424_2_alg».proof.Proof.LibPlaneSum
import Idealize.ShloMosaic.Lib.ValueIdx
import Idealize.ShloMosaic.Lib.Pipeline.Value
import Idealize.ShloMosaic.PureOps.Ideal.Laws

noncomputable section

namespace Cert.ReferenceIdeal.Entry

open Cert.ReferenceIdeal Cert.ReferenceIdeal.Read Idealize.ShloMosaic Idealize.ShloMosaic.ValueIdx

variable
  (x0 : (⟨S50000x64, .f32⟩ : BufTy).Contents (Elt Ideal)) (x1 : (⟨S2x800000, .i32⟩ : BufTy).Contents (Elt Ideal))
  (x2 : (⟨S50000x3, .f32⟩ : BufTy).Contents (Elt Ideal)) (x3 : (⟨S64x64, .f32⟩ : BufTy).Contents (Elt Ideal))
  (x4 : (⟨S64, .f32⟩ : BufTy).Contents (Elt Ideal)) (x5 : (⟨S68x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S1x16, .f32⟩ : BufTy).Contents (Elt Ideal))
  (x10 : (⟨S16, .f32⟩ : BufTy).Contents (Elt Ideal)) (x11 : (⟨S16x4, .f32⟩ : BufTy).Contents (Elt Ideal))
  (x12 : (⟨S4, .f32⟩ : BufTy).Contents (Elt Ideal))

/-! ## The composed index functions as coordinate constructors -/

theorem lidx63 (n : Fin 50000) (o : Fin 64) (k : Fin 64) : lidx_main_v63 (ix2 n o) k = ix2 n k :=
  funext fun a => Fin.ext (by match a with | ⟨0, _⟩ => rfl | ⟨1, _⟩ => rfl)
theorem ridx63 (n : Fin 50000) (o : Fin 64) (k : Fin 64) : ridx_main_v63 (ix2 n o) k = ix2 k o :=
  funext fun a => Fin.ext (by match a with | ⟨0, _⟩ => rfl | ⟨1, _⟩ => rfl)
theorem idx65 (n : Fin 50000) (o : Fin 64) : idx_main_v65 (ix2 n o) = ix2 0 o :=
  funext fun a => Fin.ext (by match a with | ⟨0, _⟩ => rfl | ⟨1, _⟩ => rfl)
theorem idx64 (z : Fin 1) (o : Fin 64) : idx_main_v64 (ix2 z o) = ix1 o :=
  funext fun a => Fin.ext (by match a with | ⟨0, _⟩ => rfl)

theorem lidx23 (e : Fin 800000) (p : Fin 16) (k : Fin 1) : lidx_main_v23 (ix2 e p) k = ix2 e k :=
  funext fun a => Fin.ext (by match a with | ⟨0, _⟩ => rfl | ⟨1, _⟩ => rfl)
theorem ridx23 (e : Fin 800000) (p : Fin 16) (k : Fin 1) : ridx_main_v23 (ix2 e p) k = ix2 k p :=
  funext fun a => Fin.ext (by match a with | ⟨0, _⟩ => rfl | ⟨1, _⟩ => rfl)
theorem idx25 (e : Fin 800000) (p : Fin 16) : idx_main_v25 (ix2 e p) = ix2 0 p :=
  funext fun a => Fin.ext (by match a with | ⟨0, _⟩ => rfl | ⟨1, _⟩ => rfl)
theorem idx24 (z : Fin 1) (p : Fin 16) : idx_main_v24 (ix2 z p) = ix1 p :=
  funext fun a => Fin.ext (by match a with | ⟨0, _⟩ => rfl)

theorem lidx28 (e : Fin 800000) (q : Fin 4) (p : Fin 16) : lidx_main_v28 (ix2 e q) p = ix2 e p :=
  funext fun a => Fin.ext (by match a with | ⟨0, _⟩ => rfl | ⟨1, _⟩ => rfl)
theorem ridx28 (e : Fin 800000) (q : Fin 4) (p : Fin 16) : ridx_main_v28 (ix2 e q) p = ix2 p q :=
  funext fun a => Fin.ext (by match a with | ⟨0, _⟩ => rfl | ⟨1, _⟩ => rfl)
theorem idx30 (e : Fin 800000) (q : Fin 4) : idx_main_v30 (ix2 e q) = ix2 0 q :=
  funext fun a => Fin.ext (by match a with | ⟨0, _⟩ => rfl | ⟨1, _⟩ => rfl)
theorem idx29 (z : Fin 1) (q : Fin 4) : idx_main_v29 (ix2 z q) = ix1 q :=
  funext fun a => Fin.ext (by match a with | ⟨0, _⟩ => rfl)

theorem lidx41 (e : Fin 800000) (j : Fin 64) (k : Fin 68) : lidx_main_v41 (ix2 e j) k = ix2 e k :=
  funext fun a => Fin.ext (by match a with | ⟨0, _⟩ => rfl | ⟨1, _⟩ => rfl)
theorem ridx41 (e : Fin 800000) (j : Fin 64) (k : Fin 68) : ridx_main_v41 (ix2 e j) k = ix2 k j :=
  funext fun a => Fin.ext (by match a with | ⟨0, _⟩ => rfl | ⟨1, _⟩ => rfl)
theorem idx43 (e : Fin 800000) (j : Fin 64) : idx_main_v43 (ix2 e j) = ix2 0 j :=
  funext fun a => Fin.ext (by match a with | ⟨0, _⟩ => rfl | ⟨1, _⟩ => rfl)
theorem idx42 (z : Fin 1) (j : Fin 64) : idx_main_v42 (ix2 z j) = ix1 j :=
  funext fun a => Fin.ext (by match a with | ⟨0, _⟩ => rfl)

theorem lidx46 (e : Fin 800000) (o : Fin 64) (j : Fin 64) : lidx_main_v46 (ix2 e o) j = ix2 e j :=
  funext fun a => Fin.ext (by match a with | ⟨0, _⟩ => rfl | ⟨1, _⟩ => rfl)
theorem ridx46 (e : Fin 800000) (o : Fin 64) (j : Fin 64) : ridx_main_v46 (ix2 e o) j = ix2 j o :=
  funext fun a => Fin.ext (by match a with | ⟨0, _⟩ => rfl | ⟨1, _⟩ => rfl)
theorem idx48 (e : Fin 800000) (o : Fin 64) : idx_main_v48 (ix2 e o) = ix2 0 o :=
  funext fun a => Fin.ext (by match a with | ⟨0, _⟩ => rfl | ⟨1, _⟩ => rfl)
theorem idx47 (z : Fin 1) (o : Fin 64) : idx_main_v47 (ix2 z o) = ix1 o :=
  funext fun a => Fin.ext (by match a with | ⟨0, _⟩ => rfl)

theorem idx58 (e : Fin 800000) (o : Fin 64) : idx_main_v58 (ix2 e o) = ix2 e 0 :=
  funext fun a => Fin.ext (by match a with | ⟨0, _⟩ => rfl | ⟨1, _⟩ => rfl)

/-! ## x · 1 / (1 + exp (−x)), the ones spelt as the word of 1.0, is silu x -/

theorem silu_spelt (x : EReal) :
    x * Ideal.div (Ideal.ofBits .f32 0x3F800000#32) (Ideal.ofBits .f32 0x3F800000#32 + Ideal.exp (-x)) = Cert.EdgeNet.silu x := by
  rw [Cert.LibPlaneSum.logistic_spelt]; rfl

/-! ## The radial hidden units -/

theorem pre_hid_entry (e : Fin 800000) (p : Fin 16) :
    val_main_v26 (F := Ideal) x1 x2 x9 x10 (ix2 e p)
      = val_main_v19 (F := Ideal) x1 x2 (ix2 e 0) * x9 (ix2 0 p) + x10 (ix1 p) := by
  rw [val_main_v26_apply, val_main_v23_apply, val_main_v25_apply, idx25, val_main_v24_apply, idx24]
  simp only [lidx23, ridx23, Ideal.addf_def, Fin.sum_univ_one]

theorem silu27 (i : S800000x16.Idx) :
    val_main_v27 (F := Ideal) x1 x2 x9 x10 i = Cert.EdgeNet.silu (val_main_v26 (F := Ideal) x1 x2 x9 x10 i) := by
  rw [val_main_v27_apply, val_main_call1_v5_apply, val_main_call1_v4_apply, val_main_call1_cst_0_apply,
    val_main_call1_v3_apply, val_main_call1_v2_apply, val_main_call1_cst_apply, val_main_call1_v1_apply,
    val_main_call1_v0_apply]
  generalize val_main_v26 (F := Ideal) x1 x2 x9 x10 i = y
  exact silu_spelt y

theorem hid_entry (e : Fin 800000) (p : Fin 16) :
    val_main_v27 (F := Ideal) x1 x2 x9 x10 (ix2 e p)
      = Cert.EdgeNet.hid (val_main_v19 (F := Ideal) x1 x2 (ix2 e 0)) (fun p => x9 (ix2 0 p)) (fun p => x10 (ix1 p)) p := by
  rw [silu27, pre_hid_entry]; rfl

/-! ## The radial features -/

theorem pre_rad_entry (e : Fin 800000) (q : Fin 4) :
    val_main_v31 (F := Ideal) x1 x2 x9 x10 x11 x12 (ix2 e q)
      = (∑ p : Fin 16, val_main_v27 (F := Ideal) x1 x2 x9 x10 (ix2 e p) * x11 (ix2 p q)) + x12 (ix1 q) := by
  rw [val_main_v31_apply, val_main_v28_apply, val_main_v30_apply, idx30, val_main_v29_apply, idx29]
  simp only [lidx28, ridx28, Ideal.addf_def]

theorem silu32 (i : S800000x4.Idx) :
    val_main_v32 (F := Ideal) x1 x2 x9 x10 x11 x12 i
      = Cert.EdgeNet.silu (val_main_v31 (F := Ideal) x1 x2 x9 x10 x11 x12 i) := by
  rw [val_main_v32_apply, val_main_call2_v5_apply, val_main_call2_v4_apply, val_main_call2_cst_0_apply,
    val_main_call2_v3_apply, val_main_call2_v2_apply, val_main_call2_cst_apply, val_main_call2_v1_apply,
    val_main_call2_v0_apply]
  generalize val_main_v31 (F := Ideal) x1 x2 x9 x10 x11 x12 i = y
  exact silu_spelt y

theorem rad_entry (e : Fin 800000) (q : Fin 4) :
    val_main_v32 (F := Ideal) x1 x2 x9 x10 x11 x12 (ix2 e q)
      = Cert.EdgeNet.rad (val_main_v19 (F := Ideal) x1 x2 (ix2 e 0)) (fun p => x9 (ix2 0 p)) (fun p => x10 (ix1 p))
          (fun p q => x11 (ix2 p q)) (fun q => x12 (ix1 q)) q := by
  rw [silu32, pre_rad_entry]
  simp only [hid_entry]
  rfl

/-! ## The joined array: the 64 source features, then the 4 radial features -/

theorem v40_left (e : Fin 800000) (k : Fin 64) :
    val_main_v40 (F := Ideal) x0 x1 x2 x9 x10 x11 x12 (ix2 e (Fin.castAdd 4 k))
      = val_main_v39 (F := Ideal) x0 x1 (ix2 e k) := by
  unfold val_main_v40
  generalize val_main_v39 (F := Ideal) x0 x1 = y1
  generalize val_main_v32 (F := Ideal) x1 x2 x9 x10 x11 x12 = y2
  exact concatenate_pair_apply_left (t := S800000x68) 1 y1 y2 Gen.concatenates_S800000x64_S800000x4_S800000x68_d1
    (ix2 e (Fin.castAdd 4 k)) rfl (ix2 e k)
    (fun b => by match b with | ⟨0, _⟩ => rfl | ⟨1, _⟩ => rfl)

theorem v40_right (e : Fin 800000) (q : Fin 4) :
    val_main_v40 (F := Ideal) x0 x1 x2 x9 x10 x11 x12 (ix2 e (Fin.natAdd 64 q))
      = val_main_v32 (F := Ideal) x1 x2 x9 x10 x11 x12 (ix2 e q) := by
  unfold val_main_v40
  generalize val_main_v39 (F := Ideal) x0 x1 = y1
  generalize val_main_v32 (F := Ideal) x1 x2 x9 x10 x11 x12 = y2
  exact concatenate_pair_apply_right (t := S800000x68) 1 y1 y2 Gen.concatenates_S800000x64_S800000x4_S800000x68_d1
    (ix2 e (Fin.natAdd 64 q)) rfl rfl (ix2 e q)
    (fun b hb => by match b, hb with | ⟨0, _⟩, _ => rfl | ⟨1, _⟩, hb => exact absurd rfl hb)
    (by show q.val + 64 = 64 + q.val; omega)

/-- A sum over 68 terms is the sum of the first 64 plus the sum of the last 4. -/
theorem sum68 (f : Fin 68 → EReal) :
    ∑ k : Fin 68, f k = (∑ k : Fin 64, f (Fin.castAdd 4 k)) + ∑ q : Fin 4, f (Fin.natAdd 64 q) :=
  Fin.sum_univ_add (a := 64) (b := 4) f

/-! ## The first dense layer of the edge network -/

theorem pre_h1_entry (e : Fin 800000) (j : Fin 64) :
    val_main_v44 (F := Ideal) x0 x1 x2 x5 x6 x9 x10 x11 x12 (ix2 e j)
      = ((∑ k : Fin 64, val_main_v39 (F := Ideal) x0 x1 (ix2 e k) * x5 (ix2 (Fin.castAdd 4 k) j))
          + ∑ q : Fin 4, val_main_v32 (F := Ideal) x1 x2 x9 x10 x11 x12 (ix2 e q) * x5 (ix2 (Fin.natAdd 64 q) j))
        + x6 (ix1 j) := by
  rw [val_main_v44_apply, val_main_v41_apply, val_main_v43_apply, idx43, val_main_v42_apply, idx42]
  simp only [lidx41, ridx41, Ideal.addf_def]
  rw [sum68]
  simp only [v40_left, v40_right]

theorem silu45 (i : S800000x64.Idx) :
    val_main_v45 (F := Ideal) x0 x1 x2 x5 x6 x9 x10 x11 x12 i
      = Cert.EdgeNet.silu (val_main_v44 (F := Ideal) x0 x1 x2 x5 x6 x9 x10 x11 x12 i) := by
  rw [val_main_v45_apply, val_main_call3_v5_apply, val_main_call3_v4_apply, val_main_call3_cst_0_apply,
    val_main_call3_v3_apply, val_main_call3_v2_apply, val_main_call3_cst_apply, val_main_call3_v1_apply,
    val_main_call3_v0_apply]
  generalize val_main_v44 (F := Ideal) x0 x1 x2 x5 x6 x9 x10 x11 x12 i = y
  exact silu_spelt y

theorem h1_entry (e : Fin 800000) (j : Fin 64) :
    val_main_v45 (F := Ideal) x0 x1 x2 x5 x6 x9 x10 x11 x12 (ix2 e j)
      = Cert.EdgeNet.h1 (fun k => val_main_v39 (F := Ideal) x0 x1 (ix2 e k))
          (Cert.EdgeNet.rad (val_main_v19 (F := Ideal) x1 x2 (ix2 e 0)) (fun p => x9 (ix2 0 p)) (fun p => x10 (ix1 p))
            (fun p q => x11 (ix2 p q)) (fun q => x12 (ix1 q)))
          (fun k j => x5 (ix2 (Fin.castAdd 4 k) j)) (fun q j => x5 (ix2 (Fin.natAdd 64 q) j)) (fun j => x6 (ix1 j)) j := by
  rw [silu45, pre_h1_entry]
  simp only [rad_entry]
  rfl

/-! ## The second dense layer of the edge network -/

theorem pre_h2_entry (e : Fin 800000) (o : Fin 64) :
    val_main_v49 (F := Ideal) x0 x1 x2 x5 x6 x7 x8 x9 x10 x11 x12 (ix2 e o)
      = (∑ j : Fin 64, val_main_v45 (F := Ideal) x0 x1 x2 x5 x6 x9 x10 x11 x12 (ix2 e j) * x7 (ix2 j o)) + x8 (ix1 o) := by
  rw [val_main_v49_apply, val_main_v46_apply, val_main_v48_apply, idx48, val_main_v47_apply, idx47]
  simp only [lidx46, ridx46, Ideal.addf_def]

theorem silu50 (i : S800000x64.Idx) :
    val_main_v50 (F := Ideal) x0 x1 x2 x5 x6 x7 x8 x9 x10 x11 x12 i
      = Cert.EdgeNet.silu (val_main_v49 (F := Ideal) x0 x1 x2 x5 x6 x7 x8 x9 x10 x11 x12 i) := by
  rw [val_main_v50_apply, val_main_call4_v5_apply, val_main_call4_v4_apply, val_main_call4_cst_0_apply,
    val_main_call4_v3_apply, val_main_call4_v2_apply, val_main_call4_cst_apply, val_main_call4_v1_apply,
    val_main_call4_v0_apply]
  generalize val_main_v49 (F := Ideal) x0 x1 x2 x5 x6 x7 x8 x9 x10 x11 x12 i = y
  exact silu_spelt y

theorem h2_entry (e : Fin 800000) (o : Fin 64) :
    val_main_v50 (F := Ideal) x0 x1 x2 x5 x6 x7 x8 x9 x10 x11 x12 (ix2 e o)
      = Cert.EdgeNet.h2
          (Cert.EdgeNet.h1 (fun k => val_main_v39 (F := Ideal) x0 x1 (ix2 e k))
            (Cert.EdgeNet.rad (val_main_v19 (F := Ideal) x1 x2 (ix2 e 0)) (fun p => x9 (ix2 0 p)) (fun p => x10 (ix1 p))
              (fun p q => x11 (ix2 p q)) (fun q => x12 (ix1 q)))
            (fun k j => x5 (ix2 (Fin.castAdd 4 k) j)) (fun q j => x5 (ix2 (Fin.natAdd 64 q) j)) (fun j => x6 (ix1 j)))
          (fun j o => x7 (ix2 j o)) (fun o => x8 (ix1 o)) o := by
  rw [silu50, pre_h2_entry]
  simp only [h1_entry]
  rfl

/-! ## The cutoff -/

theorem cut_entry (i : S800000x1.Idx) :
    val_main_v57 (F := Ideal) x1 x2 i = Cert.EdgeNet.cut (val_main_v19 (F := Ideal) x1 x2 i) := by
  rw [val_main_v57_apply, val_main_v56_apply, val_main_call5_v4_apply, val_main_call5_v3_apply, val_main_cst_8_apply,
    val_main_call5_v2_apply, val_main_call5_v1_apply, val_main_call5_v0_apply, val_main_cst_7_apply,
    val_main_v55_apply, val_main_v54_apply, val_main_cst_6_apply, val_main_v53_apply, val_main_v52_apply,
    val_main_v51_apply, val_main_cst_5_apply, val_main_v22_apply, val_main_v21_apply, val_main_v20_apply,
    val_main_cst_apply]
  generalize val_main_v19 (F := Ideal) x1 x2 i = d
  rfl

/-! ## The message of one edge -/

theorem msg_entry (e : Fin 800000) (o : Fin 64) :
    val_main_v59 (F := Ideal) x0 x1 x2 x5 x6 x7 x8 x9 x10 x11 x12 (ix2 e o)
      = Cert.EdgeNet.msg (fun k => val_main_v39 (F := Ideal) x0 x1 (ix2 e k)) (val_main_v19 (F := Ideal) x1 x2 (ix2 e 0))
          (fun p => x9 (ix2 0 p)) (fun p => x10 (ix1 p)) (fun p q => x11 (ix2 p q)) (fun q => x12 (ix1 q))
          (fun k j => x5 (ix2 (Fin.castAdd 4 k) j)) (fun q j => x5 (ix2 (Fin.natAdd 64 q) j)) (fun j => x6 (ix1 j))
          (fun j o => x7 (ix2 j o)) (fun o => x8 (ix1 o)) o := by
  rw [val_main_v59_apply, val_main_v58_apply, idx58, cut_entry, h2_entry]
  rfl

/-! ## A node's result -/

theorem node_entry (n : Fin 50000) (o : Fin 64) :
    val_main_v67 (F := Ideal) x0 x1 x2 x3 x4 x5 x6 x7 x8 x9 x10 x11 x12 (ix2 n o)
      = Cert.EdgeNet.node (fun k => x0 (ix2 n k)) (fun k o => x3 (ix2 k o)) (fun o => x4 (ix1 o))
          (fun o => val_main_v62 (F := Ideal) x0 x1 x2 x5 x6 x7 x8 x9 x10 x11 x12 (ix2 n o)) o := by
  rw [val_main_v67_apply, val_main_v66_apply, val_main_v63_apply, val_main_v65_apply, idx65, val_main_v64_apply, idx64]
  simp only [lidx63, ridx63, Ideal.addf_def]
  generalize val_main_v62 (F := Ideal) x0 x1 x2 x5 x6 x7 x8 x9 x10 x11 x12 = agg
  rfl

end Cert.ReferenceIdeal.Entry

end
-- ==== Proof.KHostIn.lean ====
/-
  What the host operations before each region leave in the device's buffers, read at an entry.

  Before the edge region the host slices the edge list into its source and target columns, gathers the positions of
  both ends and subtracts them, takes the length of each difference, gathers the source nodes' features, pads the
  edge arrays from 800000 to 802816 rows (the features with zeros, the lengths with tens, the target column with the
  row number 50000), cuts the first-layer weight into its first 64 and last 4 rows and lays the bias vectors out as
  rows.  Each of these buffers is read here at an entry and is the launch memory's argument array, or the
  reference's stage function of the argument arrays, at the corresponding entry.  A buffer no operation writes
  holds what it held at launch.
-/
import proofs.«148534_j72164040507424_2_alg».proof.Proof.Gen.KernelIdeal.Frame
import proofs.«148534_j72164040507424_2_alg».proof.Proof.Gen.ReferenceIdeal.Read
import proofs.«148534_j72164040507424_2_alg».proof.Proof.LibSoftmaxRow
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.KHostIn

open Cert.KernelIdeal Cert.KernelIdeal.Gen Idealize.ShloMosaic Idealize.ShloMosaic.ValueIdx Idealize.ShloMosaic.StableHlo
open Idealize.ShloMosaic.TcCoe Idealize.SL.Sem

variable (m : (ℓ : Loc nD τ sig) → Buf (Elt Ideal) ℓ) (ρ : Dev nD → PrngReg) (c : Dev nD)

/-! ## Whole arrays no host operation writes

The fold of the three stretches of host operations at such a buffer walks back, operation by operation, to the launch
memory. -/

theorem w_arg9 : W3 m ρ c (Proc.devRef .tc main_arg9) = m ((c : Thread nD τ).loc main_arg9) := by
  dsimp only [W3, W2, W1, W0]
  simp only [hostOps0, hostOps0_1, hostOps0_2]
  after_results

theorem w_arg11 : W3 m ρ c (Proc.devRef .tc main_arg11) = m ((c : Thread nD τ).loc main_arg11) := by
  dsimp only [W3, W2, W1, W0]
  simp only [hostOps0, hostOps0_1, hostOps0_2]
  after_results

theorem w_arg7 : W3 m ρ c (Proc.devRef .tc main_arg7) = m ((c : Thread nD τ).loc main_arg7) := by
  dsimp only [W3, W2, W1, W0]
  simp only [hostOps0, hostOps0_1, hostOps0_2]
  after_results

theorem w_arg0 : W3 m ρ c (Proc.devRef .tc main_arg0) = m ((c : Thread nD τ).loc main_arg0) := by
  dsimp only [W3, W2, W1, W0]
  simp only [hostOps0, hostOps0_1, hostOps0_2]
  after_results

theorem w_arg3 : W3 m ρ c (Proc.devRef .tc main_arg3) = m ((c : Thread nD τ).loc main_arg3) := by
  dsimp only [W3, W2, W1, W0]
  simp only [hostOps0, hostOps0_1, hostOps0_2]
  after_results

/-! ## The bias vectors laid out as rows -/

theorem w_v37_eq : (W3 m ρ c (Proc.devRef .tc main_v37) : S1x16.Idx → EReal)
    = shapeCast S1x16 (m ((c : Thread nD τ).loc main_arg10)) shapeCasts_S16_S1x16 := by
  dsimp only [W3, W2, W1, W0]
  simp only [hostOps0, hostOps0_1, hostOps0_2]
  after_results <;> rfl

theorem w_v38_eq : (W3 m ρ c (Proc.devRef .tc main_v38) : S1x4.Idx → EReal)
    = shapeCast S1x4 (m ((c : Thread nD τ).loc main_arg12)) shapeCasts_S4_S1x4 := by
  dsimp only [W3, W2, W1, W0]
  simp only [hostOps0, hostOps0_1, hostOps0_2]
  after_results <;> rfl

theorem w_v39_eq : (W3 m ρ c (Proc.devRef .tc main_v39) : S1x64.Idx → EReal)
    = shapeCast S1x64 (m ((c : Thread nD τ).loc main_arg6)) shapeCasts_S64_S1x64 := by
  dsimp only [W3, W2, W1, W0]
  simp only [hostOps0, hostOps0_1, hostOps0_2]
  after_results <;> rfl

theorem w_v40_eq : (W3 m ρ c (Proc.devRef .tc main_v40) : S1x64.Idx → EReal)
    = shapeCast S1x64 (m ((c : Thread nD τ).loc main_arg8)) shapeCasts_S64_S1x64 := by
  dsimp only [W3, W2, W1, W0]
  simp only [hostOps0, hostOps0_1, hostOps0_2]
  after_results <;> rfl

theorem w_v41_eq : (W3 m ρ c (Proc.devRef .tc main_v41) : S1x64.Idx → EReal)
    = shapeCast S1x64 (m ((c : Thread nD τ).loc main_arg4)) shapeCasts_S64_S1x64 := by
  dsimp only [W3, W2, W1, W0]
  simp only [hostOps0, hostOps0_1, hostOps0_2]
  after_results <;> rfl

/-- The first radial bias as a row, at (0, p). -/
theorem w_v37 (p : Fin 16) : (W3 m ρ c (Proc.devRef .tc main_v37) : S1x16.Idx → EReal) (ix2 0 p)
    = (m ((c : Thread nD τ).loc main_arg10) : S16.Idx → EReal) (ix1 p) := by
  rw [w_v37_eq]
  exact shapeCast_a_1a_apply _ _ 0 p

/-- The second radial bias as a row, at (0, q). -/
theorem w_v38 (q : Fin 4) : (W3 m ρ c (Proc.devRef .tc main_v38) : S1x4.Idx → EReal) (ix2 0 q)
    = (m ((c : Thread nD τ).loc main_arg12) : S4.Idx → EReal) (ix1 q) := by
  rw [w_v38_eq]
  exact shapeCast_a_1a_apply _ _ 0 q

/-- The first dense layer's bias as a row, at (0, j). -/
theorem w_v39 (j : Fin 64) : (W3 m ρ c (Proc.devRef .tc main_v39) : S1x64.Idx → EReal) (ix2 0 j)
    = (m ((c : Thread nD τ).loc main_arg6) : S64.Idx → EReal) (ix1 j) := by
  rw [w_v39_eq]
  exact shapeCast_a_1a_apply _ _ 0 j

/-- The second dense layer's bias as a row, at (0, o). -/
theorem w_v40 (o : Fin 64) : (W3 m ρ c (Proc.devRef .tc main_v40) : S1x64.Idx → EReal) (ix2 0 o)
    = (m ((c : Thread nD τ).loc main_arg8) : S64.Idx → EReal) (ix1 o) := by
  rw [w_v40_eq]
  exact shapeCast_a_1a_apply _ _ 0 o

/-! ## The first dense layer's weight, cut into its first 64 and its last 4 rows -/

theorem w_v35_eq : (W3 m ρ c (Proc.devRef .tc main_v35) : S64x64.Idx → EReal)
    = extractStridedSlice S64x64 ![0, 0] (m ((c : Thread nD τ).loc main_arg5)) slices_S68x64_S64x64_0_0 := by
  dsimp only [W3, W2, W1, W0]
  simp only [hostOps0, hostOps0_1, hostOps0_2]
  after_results <;> rfl

theorem w_v36_eq : (W3 m ρ c (Proc.devRef .tc main_v36) : S4x64.Idx → EReal)
    = extractStridedSlice S4x64 ![64, 0] (m ((c : Thread nD τ).loc main_arg5)) slices_S68x64_S4x64_64_0 := by
  dsimp only [W3, W2, W1, W0]
  simp only [hostOps0, hostOps0_1, hostOps0_2]
  after_results <;> rfl

/-- Rows 0 to 63 of the 68-row weight. -/
theorem w_v35 (k j : Fin 64) : (W3 m ρ c (Proc.devRef .tc main_v35) : S64x64.Idx → EReal) (ix2 k j)
    = (m ((c : Thread nD τ).loc main_arg5) : S68x64.Idx → EReal) (ix2 (Fin.castAdd 4 k) j) := by
  rw [w_v35_eq]
  exact slice2_axis0_apply 0 _ slices_S68x64_S64x64_0_0 k j (Fin.castAdd 4 k) (Nat.zero_add _).symm

/-- Rows 64 to 67 of the 68-row weight. -/
theorem w_v36 (q : Fin 4) (j : Fin 64) : (W3 m ρ c (Proc.devRef .tc main_v36) : S4x64.Idx → EReal) (ix2 q j)
    = (m ((c : Thread nD τ).loc main_arg5) : S68x64.Idx → EReal) (ix2 (Fin.natAdd 64 q) j) := by
  rw [w_v36_eq]
  exact slice2_axis0_apply 64 _ slices_S68x64_S4x64_64_0 q j (Fin.natAdd 64 q) rfl

/-! ## At the projection region's entry

The five host operations between the two regions write none of the node features, the projection weight and the bias
row, and the edge region's arrays are not among them either. -/

theorem p_arg0 : W5 m ρ c (Proc.devRef .tc main_arg0) = m ((c : Thread nD τ).loc main_arg0) := by
  have h1 : ∀ G : Valuation τ sig (Elt Ideal),
      StableHlo.after hostOps1 G (Proc.devRef .tc main_arg0) = G (Proc.devRef .tc main_arg0) := fun G => by
    simp only [hostOps1]
    after_results
  exact (h1 _).trans ((W4_of_ne m ρ c main_arg0 (by decide)).trans (w_arg0 m ρ c))

theorem p_arg3 : W5 m ρ c (Proc.devRef .tc main_arg3) = m ((c : Thread nD τ).loc main_arg3) := by
  have h1 : ∀ G : Valuation τ sig (Elt Ideal),
      StableHlo.after hostOps1 G (Proc.devRef .tc main_arg3) = G (Proc.devRef .tc main_arg3) := fun G => by
    simp only [hostOps1]
    after_results
  exact (h1 _).trans ((W4_of_ne m ρ c main_arg3 (by decide)).trans (w_arg3 m ρ c))

/-- The projection's bias as a row, at (0, o). -/
theorem p_v41 (o : Fin 64) : (W5 m ρ c (Proc.devRef .tc main_v41) : S1x64.Idx → EReal) (ix2 0 o)
    = (m ((c : Thread nD τ).loc main_arg4) : S64.Idx → EReal) (ix1 o) := by
  have h1 : ∀ G : Valuation τ sig (Elt Ideal),
      StableHlo.after hostOps1 G (Proc.devRef .tc main_v41) = G (Proc.devRef .tc main_v41) := fun G => by
    simp only [hostOps1]
    after_results
  have h5 : W5 m ρ c (Proc.devRef .tc main_v41) = W3 m ρ c (Proc.devRef .tc main_v41) :=
    (h1 _).trans (W4_of_ne m ρ c main_v41 (by decide))
  rw [h5, w_v41_eq]
  exact shapeCast_a_1a_apply _ _ 0 o

/-! ## The scatter's row numbers: the target column, then 2816 copies of 50000 -/

theorem w_v33_eq : (W3 m ρ c (Proc.devRef .tc main_v33) : S802816.Idx → BitVec 32)
    = concatenate S802816 0
        [⟨S800000, Cert.ReferenceIdeal.Read.val_main_v3 (F := Ideal) (m ((c : Thread nD τ).loc main_arg1))⟩,
          ⟨S2816, broadcastInDim S2816 ![] bcast_S_S2816 (constantI S_ 32 50000#32)⟩]
        concatenates_S800000_S2816_S802816_d0 := by
  dsimp only [W3, W2, W1, W0]
  simp only [hostOps0, hostOps0_1, hostOps0_2]
  after_results <;> rfl

theorem w4_v33 : W4 m ρ c (Proc.devRef .tc main_v33) = W3 m ρ c (Proc.devRef .tc main_v33) :=
  W4_of_ne m ρ c main_v33 (by decide)

/-- An edge's row number is its target node, as the reference reads it off the edge list. -/
theorem tgt_entry (e : Fin 800000) :
    (W4 m ρ c (Proc.devRef .tc main_v33) : S802816.Idx → BitVec 32) (ix1 ⟨e.val, by omega⟩)
      = Cert.ReferenceIdeal.Read.val_main_v3 (F := Ideal) (m ((c : Thread nD τ).loc main_arg1)) (ix1 e) := by
  rw [w4_v33, w_v33_eq]
  exact concatenate_pair_apply_left (0 : Fin S802816.rank) _ _ concatenates_S800000_S2816_S802816_d0 _ rfl (ix1 e)
    (fun b => match b with | ⟨0, _⟩ => rfl)

/-- A padding row's number is 50000, one past the last node. -/
theorem tgt_pad (e : Fin 802816) (h : 800000 ≤ e.val) :
    (W4 m ρ c (Proc.devRef .tc main_v33) : S802816.Idx → BitVec 32) (ix1 e) = 50000#32 := by
  rw [w4_v33, w_v33_eq]
  refine (concatenate_pair_apply_right (0 : Fin S802816.rank) _ _ concatenates_S800000_S2816_S802816_d0 _ rfl rfl
    (ix1 (⟨e.val - 800000, by omega⟩ : Fin 2816)) (fun b hb => absurd (Subsingleton.elim _ _) hb) ?_).trans rfl
  show e.val - 800000 + 800000 = e.val
  omega

/-! ## The edge lengths -/

/-- A buffer at launch holds the launch memory's contents. -/
theorem w0_eq (r : Ref sig .tc) : W0 m ρ c (Proc.devRef .tc r) = m ((c : Thread nD τ).loc r) := rfl

/-- After the first stretch the difference buffer holds the reference's difference of the gathered positions: the
    same operations on the same arguments (both subtract the source end's position from the target end's). -/
theorem w1_v18 : (W1 m ρ c (Proc.devRef .tc main_v18) : S800000x3.Idx → EReal)
    = Cert.ReferenceIdeal.Read.val_main_v18 (F := Ideal) (m ((c : Thread nD τ).loc main_arg1))
        (m ((c : Thread nD τ).loc main_arg2)) := by
  dsimp only [W1]
  simp only [hostOps0]
  after_results_simp
  rw [w0_eq m ρ c main_arg1, w0_eq m ρ c main_arg2]
  unfold Cert.ReferenceIdeal.Read.val_main_v18 Cert.ReferenceIdeal.Read.val_main_v10 Cert.ReferenceIdeal.Read.val_main_v17
    Cert.ReferenceIdeal.Read.val_main_v9 Cert.ReferenceIdeal.Read.val_main_v16 Cert.ReferenceIdeal.Read.val_main_v8
    Cert.ReferenceIdeal.Read.val_main_v15 Cert.ReferenceIdeal.Read.val_main_v5 Cert.ReferenceIdeal.Read.val_main_v7
    Cert.ReferenceIdeal.Read.val_main_v12 Cert.ReferenceIdeal.Read.val_main_v14 Cert.ReferenceIdeal.Read.val_main_v4
    Cert.ReferenceIdeal.Read.val_main_v6 Cert.ReferenceIdeal.Read.val_main_v11 Cert.ReferenceIdeal.Read.val_main_v13
    Cert.ReferenceIdeal.Read.val_main_c Cert.ReferenceIdeal.Read.val_main_c_0 Cert.ReferenceIdeal.Read.val_main_c_1
    Cert.ReferenceIdeal.Read.val_main_c_2 Cert.ReferenceIdeal.Read.val_main_v3 Cert.ReferenceIdeal.Read.val_main_v1
    Cert.ReferenceIdeal.Read.val_main_v2 Cert.ReferenceIdeal.Read.val_main_v0
  rfl

/-- Contents moved to a typed reference's buffer type and back are unchanged. -/
theorem ofBuf_toBuf {T : BufTy} (x : TRef sig T) (v : T.Contents (Elt Ideal)) : x.ofBuf (x.toBuf v) = v := by
  obtain ⟨r, rfl, h1, h2⟩ := x
  rfl

/-- At the length buffer the move to the buffer's type is the identity. -/
theorem toBuf_v19 (v : (⟨S800000, .f32⟩ : BufTy).Contents (Elt Ideal)) :
    (TRef.of main_v19 : TRef sig ⟨S800000, .f32⟩).toBuf v = v := rfl

/-- At the difference buffer the move from the buffer's type is the identity. -/
theorem ofBuf_v18 (v : main_v18.ty.Contents (Elt Ideal)) :
    (TRef.of main_v18 : TRef sig ⟨S800000x3, .f32⟩).ofBuf v = v := rfl

/-- The second stretch, from any contents: the length buffer is the square root of the row sums of the squared
    difference buffer. -/
theorem s1_v19 (G : Valuation τ sig (Elt Ideal)) :
    (StableHlo.after hostOps0_1 G (Proc.devRef .tc main_v19) : S800000.Idx → EReal)
      = Host.sqrt (Host.reduceAdd
          (mulf (G (Proc.devRef .tc main_v18) : FVec Ideal S800000x3 .f32) (G (Proc.devRef .tc main_v18)))
          (constant (F := Ideal) S_ .f32 0x00000000#32) reducesTo_S800000x3_S800000_d1 h_S_) := by
  simp only [hostOps0_1]
  after_results_simp
  simp only [ofBuf_toBuf]
  rw [toBuf_v19, ofBuf_v18]

/-- After the second stretch the length buffer is the square root of the reference's row sums of squares. -/
theorem w2_v19 : (W2 m ρ c (Proc.devRef .tc main_v19) : S800000.Idx → EReal)
    = Host.sqrt (F := Ideal) (s := S800000) (φ := .f32)
        (Cert.ReferenceIdeal.Read.val_main_call0_v1 (F := Ideal) (m ((c : Thread nD τ).loc main_arg1))
          (m ((c : Thread nD τ).loc main_arg2))) := by
  refine (s1_v19 (W1 m ρ c)).trans ?_
  rw [w1_v18]
  unfold Cert.ReferenceIdeal.Read.val_main_call0_v1 Cert.ReferenceIdeal.Read.val_main_call0_v0
    Cert.ReferenceIdeal.Read.val_main_call0_cst
  generalize Cert.ReferenceIdeal.Read.val_main_v18 (F := Ideal) (m ((c : Thread nD τ).loc main_arg1))
    (m ((c : Thread nD τ).loc main_arg2)) = V
  rfl

/-- The third stretch, from any contents: the padded length column is the length buffer followed by 2816 tens,
    laid out as a column. -/
theorem s2_v34 (G : Valuation τ sig (Elt Ideal)) :
    (StableHlo.after hostOps0_2 G (Proc.devRef .tc main_v34) : S802816x1.Idx → EReal)
      = shapeCast S802816x1
          (concatenate S802816 0
            [⟨S800000, (G (Proc.devRef .tc main_v19) : FVec Ideal S800000 .f32)⟩,
              ⟨S2816, broadcastInDim S2816 ![] bcast_S_S2816 (constant (F := Ideal) S_ .f32 0x41200000#32)⟩]
            concatenates_S800000_S2816_S802816_d0)
          shapeCasts_S802816_S802816x1 := by
  simp only [hostOps0_2]
  after_results <;> rfl

/-! ## A two-piece concatenation along the first axis, read inside the first piece -/

/-- Vectors: entry e of `[n] ++ [k]`, e below n, is entry e of the first piece. -/
theorem cat1_left {α : Type} {n k t : ℕ} (x₁ : (⟨1, ![n]⟩ : Shape).Idx → α) (x₂ : (⟨1, ![k]⟩ : Shape).Idx → α)
    (h : Shape.Concatenates [(⟨1, ![n]⟩ : Shape), ⟨1, ![k]⟩] ⟨1, ![t]⟩ 0) (e : Fin n) (he : e.val < t) :
    concatenate ⟨1, ![t]⟩ 0 [⟨⟨1, ![n]⟩, x₁⟩, ⟨⟨1, ![k]⟩, x₂⟩] h (ix1 ⟨e.val, he⟩) = x₁ (ix1 e) :=
  concatenate_pair_apply_left (0 : Fin (⟨1, ![t]⟩ : Shape).rank) x₁ x₂ h (ix1 ⟨e.val, he⟩) rfl (ix1 e)
    (fun b => match b with | ⟨0, _⟩ => rfl)

/-- Matrices: entry (e, j) of `[n, d]` stacked on `[k, d]`, e below n, is entry (e, j) of the first piece. -/
theorem cat2_left {α : Type} {n k t d : ℕ} (x₁ : (⟨2, ![n, d]⟩ : Shape).Idx → α) (x₂ : (⟨2, ![k, d]⟩ : Shape).Idx → α)
    (h : Shape.Concatenates [(⟨2, ![n, d]⟩ : Shape), ⟨2, ![k, d]⟩] ⟨2, ![t, d]⟩ 0) (e : Fin n) (he : e.val < t)
    (j : Fin d) :
    concatenate ⟨2, ![t, d]⟩ 0 [⟨⟨2, ![n, d]⟩, x₁⟩, ⟨⟨2, ![k, d]⟩, x₂⟩] h (ix2 ⟨e.val, he⟩ j) = x₁ (ix2 e j) :=
  concatenate_pair_apply_left (0 : Fin (⟨2, ![t, d]⟩ : Shape).rank) x₁ x₂ h (ix2 ⟨e.val, he⟩ j) rfl (ix2 e j)
    (fun b => match b with | ⟨0, _⟩ => rfl | ⟨1, _⟩ => rfl)

/-- The host's square root reads its operand at the index: equal operand entries give equal results. Stated for any
    float instance, where it is a definitional unfolding; at the extended reals the same unfolding would expand the
    real square root itself. -/
theorem sqrt_congr {F : FTy → Type} [FloatOps F] {s s' : Shape} {φ : FTy} (X : FVec F s φ) (Y : FVec F s' φ)
    (i : s.Idx) (j : s'.Idx) (h : X i = Y j) : Host.sqrt X i = Host.sqrt Y j := by
  show FloatOps.hostUnary .sqrt (X i) = FloatOps.hostUnary .sqrt (Y j)
  rw [h]

/-- An edge's length at the edge region's entry is the reference's. -/
theorem d_entry (e : Fin 800000) :
    (W3 m ρ c (Proc.devRef .tc main_v34) : S802816x1.Idx → EReal) (ix2 ⟨e.val, by omega⟩ 0)
      = Cert.ReferenceIdeal.Read.val_main_v19 (F := Ideal) (m ((c : Thread nD τ).loc main_arg1))
          (m ((c : Thread nD τ).loc main_arg2)) (ix2 e 0) := by
  have h3 : (W3 m ρ c (Proc.devRef .tc main_v34) : S802816x1.Idx → EReal)
      = shapeCast S802816x1
          (concatenate S802816 0
            [⟨S800000, Host.sqrt (F := Ideal) (s := S800000) (φ := .f32)
                (Cert.ReferenceIdeal.Read.val_main_call0_v1 (F := Ideal)
                  (m ((c : Thread nD τ).loc main_arg1)) (m ((c : Thread nD τ).loc main_arg2)))⟩,
              ⟨S2816, broadcastInDim S2816 ![] bcast_S_S2816 (constant (F := Ideal) S_ .f32 0x41200000#32)⟩]
            concatenates_S800000_S2816_S802816_d0)
          shapeCasts_S802816_S802816x1 :=
    (s2_v34 (W2 m ρ c)).trans (by rw [w2_v19])
  have hidx : Cert.ReferenceIdeal.Read.idx_main_call0_v2 (ix2 e 0) = ix1 e :=
    funext fun a => match a with | ⟨0, _⟩ => rfl
  rw [h3, Cert.LibSoftmaxRow.shapeCast_a_a1_apply]
  refine (cat1_left _ _ concatenates_S800000_S2816_S802816_d0 e _).trans ?_
  unfold Cert.ReferenceIdeal.Read.val_main_v19
  exact sqrt_congr _ _ _ _ (by rw [Cert.ReferenceIdeal.Read.val_main_call0_v2_apply, hidx])

end Cert.KernelIdeal.KHostIn

end
-- ==== Proof.KHostXs.lean ====
/-
  The padded feature buffer the edge region reads.

  Before the edge region the host narrows the node features (the identity at the ideal values), gathers the rows
  named by the source column of the edge index (a negative row number first moved up by the number of nodes), and
  appends 2816 rows of zeros.  So row e of that buffer, for a real edge e, is row e of the gathered features — the
  same gather of the same table by the same column as in the reference.
-/
import proofs.«148534_j72164040507424_2_alg».proof.Proof.Gen.KernelIdeal.Frame
import proofs.«148534_j72164040507424_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.KHostXs

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A two-piece concatenation along the rows, read at a row of the first piece. -/
theorem concat_left_2d {α : Type} (x₁ : S800000x64.Idx → α) (x₂ : S2816x64.Idx → α)
    (h : Shape.Concatenates [S800000x64, S2816x64] S802816x64 0) (e : Fin 800000) (k : Fin 64) :
    concatenate S802816x64 0 [⟨S800000x64, x₁⟩, ⟨S2816x64, x₂⟩] h (ix2 (⟨e.val, by omega⟩ : Fin 802816) k) = x₁ (ix2 e k) :=
  concatenate_pair_apply_left (t := S802816x64) (s₁ := S800000x64) (s₂ := S2816x64) (0 : Fin 2) x₁ x₂ h (ix2 (⟨e.val, by omega⟩ : Fin 802816) k) rfl (ix2 e k) (fun b => by match b with | ⟨0, _⟩ => rfl | ⟨1, _⟩ => rfl)

/-- The source-row column the feature gather reads, from a valuation's source column. -/
def srcCol (v1 : S800000.Idx → BitVec 32) : S800000x1.Idx → BitVec 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- What the last host stretch before the edge region leaves in the feature buffer, over the contents it starts from. -/
theorem s2_v29 (G : Valuation τ sig (Elt Ideal)) :
    (StableHlo.after hostOps0_2 G (Proc.devRef .tc main_v29) : S802816x64.Idx → EReal)
      = concatenate S802816x64 0
          [⟨S800000x64, Host.gather gather_S50000x64_S800000x1_S800000x64_1_0_n_n_0_1_164
              (truncf .bf16 (G (Proc.devRef .tc main_arg0) : S50000x64.Idx → EReal) bitsLt_bf16_f32)
              (srcCol (G (Proc.devRef .tc main_v1) : S800000.Idx → BitVec 32))⟩,
           ⟨S2816x64, broadcastInDim S2816x64 ![] bcast_S_S2816x64 (constant (F := Ideal) S_ .bf16 0x0000#16)⟩]
          concatenates_S800000x64_S2816x64_S802816x64_d0 := by
  simp only [hostOps0_2]
  after_results
  try rfl

/-- The features are never written before the edge region. -/
theorem w2_arg0 : (W2 m ρ c (Proc.devRef .tc main_arg0) : S50000x64.Idx → EReal) = m ((c : Thread nD τ).loc main_arg0) := by
  dsimp only [W2, W1, W0]
  simp only [hostOps0, hostOps0_1]
  after_results
  try rfl

/-- The source column: row 0 of the edge index, laid out as a vector. -/
theorem w2_v1 : (W2 m ρ c (Proc.devRef .tc main_v1) : S800000.Idx → BitVec 32)
    = Cert.ReferenceIdeal.Read.val_main_v1 (F := Ideal) (m ((c : Thread nD τ).loc main_arg1)) := by
  dsimp only [W2, W1, W0]
  simp only [hostOps0, hostOps0_1]
  after_results
  unfold Cert.ReferenceIdeal.Read.val_main_v1 Cert.ReferenceIdeal.Read.val_main_v0
  rfl

/-- Row e of the padded feature buffer, for a real edge e, is row e of the reference's gathered features. -/
theorem xs_entry (e : Fin 800000) (k : Fin 64) :
    (W3 m ρ c (Proc.devRef .tc main_v29) : S802816x64.Idx → EReal) (ix2 ⟨e.val, by omega⟩ k)
      = Cert.ReferenceIdeal.Read.val_main_v39 (F := Ideal) (m ((c : Thread nD τ).loc main_arg0)) (m ((c : Thread nD τ).loc main_arg1)) (ix2 e k) := by
  have h := congrFun (s2_v29 (W2 m ρ c)) (ix2 (⟨e.val, by omega⟩ : Fin 802816) k)
  refine h.trans ?_
  refine (concat_left_2d _ _ _ e k).trans ?_
  rw [w2_arg0, w2_v1]
  unfold Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_c_4 Cert.ReferenceIdeal.Read.val_main_c_3 srcCol
  rfl

end Cert.KernelIdeal.KHostXs

end
-- ==== Proof.LibRowScatter.lean ====
/-
  Rows of a two-dimensional table read through an integer index column, and updates added into rows.

  A table `x : [R, C]` and an index array `idx : [n, 1]`.
  * GATHER OF ROWS (the gather operation with offset axis 1, collapsed slice axis 0, start index map `[0]`, index vector
    axis 1, slice sizes `[1, C]`): result element `(e, k)` is `x` at row `idx[e, 0]` — read as a signed integer, negative
    values truncated to 0, then clamped to at most `R − 1` — and column `k` (`gather_rows_apply`).
  * SCATTER-ADD INTO ROWS (the scatter operation with an `add` body, update window axis 1, inserted window axis 0,
    scatter-dims-to-operand-dims `[0]`, index vector axis 1): update element `(e, k)` lands at row `idx[e, 0]` read as a
    signed integer and column `k`, when that row is in `[0, R)`, and is dropped otherwise; so result element `(r, o)` is
    `x (r, o)` plus the sum over the `e` whose index is exactly `r` of the update `(e, o)` (`scatterAdd_rows_apply`).
  Both are generic in the sizes `R`, `C`, `n` and in the index width `w`; the dimension-number records take their
  well-formedness condition as a hypothesis, which is decided on literal sizes.
-/
import Idealize.ShloMosaic.PureOps.Ideal
import Idealize.ShloMosaic.Lib.ValueIdx

noncomputable section

open scoped BigOperators

namespace Cert.RowOps

open Idealize.ShloMosaic Idealize.ShloMosaic.ValueIdx

/-! ## Gather of rows -/

/-- The dimension numbers of a gather of whole rows: operand `[R, C]`, start indices `[n, 1]`, result `[n, C]`; the
    result's axis 1 is the offset axis, the operand's axis 0 is collapsed and is the one the start index names, the
    index vector lies along axis 1 of the start indices, and a slice is one row (`[1, C]`). -/
abbrev rowGather (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the table at row `idx[e, 0]`, read signed, truncated at 0 and clamped to
    `R − 1`, and column `k`. -/
theorem gather_rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowGather R C n wf) x idx (ix2 e k)
      = x (ix2 ⟨min (idx (ix2 e 0)).toInt.toNat (R - 1), by omega⟩ k) := by
  unfold Host.gather
  congr 1
  funext a
  refine Fin.ext ?_
  match a with
  | ⟨0, _⟩ =>
    -- the row axis: the clamped start index; no batching coordinate, and no offset coordinate on a collapsed axis
    show (rowGather R C n wf).start (ix2 e k) idx 0 + (rowGather R C n wf).batchCoord (ix2 e k) 0
      + (rowGather R C n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C n wf).startIndexMap from List.mem_singleton.mpr rfl)]
    have hsi : (rowGather R C n wf).siIdx (ix2 e k) ⟨List.idxOf (0 : Fin 2) (rowGather R C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not named by the start index map, so the start is 0 and the coordinate is the offset `k`
    show (rowGather R C n wf).start (ix2 e k) idx 1 + (rowGather R C n wf).batchCoord (ix2 e k) 1
      + (rowGather R C n wf).offCoord (ix2 e k) 1 = k.val
    rw [GatherDims.batchCoord_eq_zero _ _ _ List.not_mem_nil]
    have hst : (rowGather R C n wf).start (ix2 e k) idx 1 = 0 := by
      unfold GatherDims.start
      rw [dif_neg (show (1 : Fin 2) ∉ (rowGather R C n wf).startIndexMap from
        fun h => absurd (List.mem_singleton.mp h) (show (1 : Fin 2) ≠ 0 from by decide))]
    have hk : (1 : Fin 2) ∈ (rowGather R C n wf).sKept :=
      (GatherDims.mem_sKept _ _).mpr
        ⟨fun h => absurd (List.mem_singleton.mp h) (show (1 : Fin 2) ≠ 0 from by decide), List.not_mem_nil⟩
    rw [hst]
    unfold GatherDims.offCoord
    rw [dif_pos hk]
    simp only [Nat.zero_add, Nat.add_zero]
    rfl

/-! ## Scatter-add into rows -/

/-- The dimension numbers of a scatter of whole-row updates: operand `[R, C]`, scatter indices `[n, 1]`, updates
    `[n, C]`; the updates' axis 1 is the window axis, the operand's axis 0 is the inserted window axis and the one the
    scatter index names, and the index vector lies along axis 1 of the scatter indices. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section
variable {R C n w : Nat} (wf : ScatterDims.WF ⟨2, ![R, C]⟩ ⟨2, ![n, 1]⟩ ⟨2, ![n, C]⟩ [1] [0] [0] 1)
  (idx : IVec ⟨2, ![n, 1]⟩ w) (e : Fin n) (k : Fin C)

/-- On the row axis the window of update `(e, k)` starts at `idx[e, 0]` read as a signed integer (not clamped). -/
theorem rowScatter_start0 :
    (rowScatter R C n wf).start (ix2 e k) idx 0 = (idx (ix2 e 0)).toInt := by
  unfold ScatterDims.start
  rw [dif_pos (show (0 : Fin 2) ∈ (rowScatter R C n wf).scatterDimsToOperandDims from List.mem_singleton.mpr rfl)]
  have hsi : (rowScatter R C n wf).siIdx (ix2 e k) ⟨List.idxOf (0 : Fin 2) (rowScatter R C n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the scatter index does not name, the window starts at 0. -/
theorem rowScatter_start1 : (rowScatter R C n wf).start (ix2 e k) idx 1 = 0 := by
  unfold ScatterDims.start
  rw [dif_neg (show (1 : Fin 2) ∉ (rowScatter R C n wf).scatterDimsToOperandDims from
    fun h => absurd (List.mem_singleton.mp h) (show (1 : Fin 2) ≠ 0 from by decide))]

/-- The row axis is an inserted window axis: the window coordinate there is 0. -/
theorem rowScatter_window0 : (rowScatter R C n wf).window (ix2 e k) 0 = 0 := by
  unfold ScatterDims.window
  rw [dif_neg]
  intro h
  simp [ScatterDims.sKept, Shape.kept] at h

/-- On the column axis the window coordinate of update `(e, k)` is `k`. -/
theorem rowScatter_window1 : (rowScatter R C n wf).window (ix2 e k) 1 = k.val := by
  have hk : (1 : Fin 2) ∈ (rowScatter R C n wf).sKept := by
    simp [ScatterDims.sKept, Shape.kept]
  unfold ScatterDims.window
  rw [dif_pos hk]
  rfl

/-- WHERE AN UPDATE LANDS: update `(e, k)` lands at `(r, o)` exactly when `idx[e, 0]`, read signed, is the row `r` and
    `k` is the column `o` (an index outside `[0, R)` is no row, so that update lands nowhere). -/
theorem rowScatter_resultIdx?_eq_some (r : Fin R) (o : Fin C) :
    (rowScatter R C n wf).resultIdx? (ix2 e k) idx = some (ix2 r o)
      ↔ (idx (ix2 e 0)).toInt = (r.val : Int) ∧ k = o := by
  have hs0 := rowScatter_start0 wf idx e k
  have hs1 := rowScatter_start1 wf idx e k
  have hw0 := rowScatter_window0 wf e k
  have hw1 := rowScatter_window1 wf e k
  unfold ScatterDims.resultIdx?
  constructor
  · intro h
    split at h
    · rename_i hall
      have h' := Option.some.inj h
      have h0 : ((rowScatter R C n wf).start (ix2 e k) idx 0
          + ((rowScatter R C n wf).window (ix2 e k) 0 : Nat)).toNat = r.val :=
        congrArg (fun f => (f 0).val) h'
      have h1 : ((rowScatter R C n wf).start (ix2 e k) idx 1
          + ((rowScatter R C n wf).window (ix2 e k) 1 : Nat)).toNat = o.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hr : r.val < R := r.isLt
    have hk : k.val < C := k.isLt
    have hall : ∀ a, 0 ≤ (rowScatter R C n wf).start (ix2 e k) idx a + ((rowScatter R C n wf).window (ix2 e k) a : Nat)
        ∧ (rowScatter R C n wf).start (ix2 e k) idx a + ((rowScatter R C n wf).window (ix2 e k) a : Nat)
          < ((⟨2, ![R, C]⟩ : Shape).size a : Nat) := by
      intro a
      match a with
      | ⟨0, _⟩ =>
        show 0 ≤ (rowScatter R C n wf).start (ix2 e k) idx 0 + ((rowScatter R C n wf).window (ix2 e k) 0 : Nat)
          ∧ (rowScatter R C n wf).start (ix2 e k) idx 0 + ((rowScatter R C n wf).window (ix2 e k) 0 : Nat) < (R : Int)
        rw [hs0, hw0, h0]; omega
      | ⟨1, _⟩ =>
        show 0 ≤ (rowScatter R C n wf).start (ix2 e k) idx 1 + ((rowScatter R C n wf).window (ix2 e k) 1 : Nat)
          ∧ (rowScatter R C n wf).start (ix2 e k) idx 1 + ((rowScatter R C n wf).window (ix2 e k) 1 : Nat) < (C : Int)
        rw [hs1, hw1]; omega
    rw [dif_pos hall]
    congr 1
    funext a
    refine Fin.ext ?_
    match a with
    | ⟨0, _⟩ =>
      show ((rowScatter R C n wf).start (ix2 e k) idx 0
        + ((rowScatter R C n wf).window (ix2 e k) 0 : Nat)).toNat = r.val
      rw [hs0, hw0, h0]; omega
    | ⟨1, _⟩ =>
      show ((rowScatter R C n wf).start (ix2 e k) idx 1
        + ((rowScatter R C n wf).window (ix2 e k) 1 : Nat)).toNat = k.val
      rw [hs1, hw1]; omega

end

/-- THE SCATTER-ADD INTO ROWS READ AT `(r, o)`: the operand's element plus the sum, over the updates `e` whose index
    `idx[e, 0]` read signed is exactly `r`, of the update's element in column `o`. -/
theorem scatterAdd_rows_apply {R C n w : Nat} (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (o : Fin C) :
    Ideal.hostScatterAdd (rowScatter R C n wf) x idx upd (ix2 r o)
      = x (ix2 r o) + ∑ e : Fin n, if (idx (ix2 e 0)).toInt = (r.val : Int) then upd (ix2 e o) else 0 := by
  unfold Ideal.hostScatterAdd
  congr 1
  -- the filtered sum as a sum of `if`s, over the two coordinates of the update index
  rw [Finset.sum_filter, sum_idx2]
  refine Finset.sum_congr rfl fun e _ => ?_
  simp only [rowScatter_resultIdx?_eq_some wf idx e _ r o]
  by_cases hA : (idx (ix2 e 0)).toInt = (r.val : Int)
  · -- the index is the row: of the columns only `o` contributes
    simp only [hA, true_and, if_true]
    rw [Finset.sum_ite_eq' Finset.univ o (fun k => upd (ix2 e k))]
    simp
  · simp [hA]

end Cert.RowOps

end
-- ==== Proof.LibPadDot.lean ====
/-
  General lemmas on finite sums with a zero tail, generic in the sizes.
  * `sum_eq_sum_castLE_of_tail_zero`: a sum over `Fin m` whose terms vanish from position `n` on is the sum of its
    first `n` terms (any commutative additive monoid).
  * `sum_mul_of_padded`: the dot product of two length-`m` families that are length-`n` families followed by zeros
    is the dot product of the length-`n` families: each extra product is `0 * 0`, which is `0` (any commutative additive
    monoid with a multiplication in which `0 * 0 = 0`; in particular the extended reals, where no finiteness is needed).
-/
import Mathlib.Algebra.BigOperators.Fin

open scoped BigOperators

namespace Cert.KernelIdeal.HandValue.LibPadDot

/-- A sum over `Fin m` whose terms vanish from position `n` on is the sum of its first `n` terms. -/
theorem sum_eq_sum_castLE_of_tail_zero {M : Type*} [AddCommMonoid M] {n m : ℕ} (h : n ≤ m) (f : Fin m → M)
    (hz : ∀ k : Fin m, n ≤ k.val → f k = 0) : ∑ k : Fin m, f k = ∑ k : Fin n, f (Fin.castLE h k) := by
  have hmap : ∑ k : Fin n, f (Fin.castLE h k) = ∑ k ∈ (Finset.univ : Finset (Fin n)).map (Fin.castLEEmb h), f k := by
    rw [Finset.sum_map]; rfl
  rw [hmap]
  symm
  refine Finset.sum_subset (Finset.subset_univ _) fun k _ hk => hz k ?_
  by_contra hlt
  refine hk (Finset.mem_map.2 ⟨⟨k.val, Nat.lt_of_not_le hlt⟩, Finset.mem_univ _, Fin.ext rfl⟩)

/-- The dot product of two zero-padded families is the dot product of the families. -/
theorem sum_mul_of_padded {M : Type*} [AddCommMonoid M] [Mul M] (h00 : (0 : M) * 0 = 0) {n m : ℕ} (h : n ≤ m)
    (u v : Fin m → M) (u' v' : Fin n → M)
    (hu : ∀ k : Fin m, u k = if hk : k.val < n then u' ⟨k.val, hk⟩ else 0)
    (hv : ∀ k : Fin m, v k = if hk : k.val < n then v' ⟨k.val, hk⟩ else 0) :
    ∑ k : Fin m, u k * v k = ∑ k : Fin n, u' k * v' k := by
  rw [sum_eq_sum_castLE_of_tail_zero h (fun k => u k * v k) fun k hk => by
    rw [hu k, hv k, dif_neg (Nat.not_lt.2 hk), dif_neg (Nat.not_lt.2 hk)]; exact h00]
  refine Finset.sum_congr rfl fun k _ => ?_
  rw [hu (Fin.castLE h k), hv (Fin.castLE h k), dif_pos (show (Fin.castLE h k).val < n from k.isLt),
    dif_pos (show (Fin.castLE h k).val < n from k.isLt)]
  rfl

end Cert.KernelIdeal.HandValue.LibPadDot
-- ==== Proof.LibScatterPad.lean ====
/-
  A scatter-add into rows whose update list is PADDED.

  Updates [n', C] are added into the rows of a table [R, C] at the row numbers idx' [n', 1]; the first n of them are
  the updates and row numbers of a shorter scatter-add, and every later one carries a row number that is not the row
  being read (for example the out-of-range number R, which lands nowhere).  Then the padded scatter-add and the
  shorter one agree at that row: the extra terms of the sum vanish and the others are the same terms.  Generic in
  R, C, n ≤ n' and on the extended reals with no finiteness.
-/
import proofs.«148534_j72164040507424_2_alg».proof.Proof.LibRowScatter
import proofs.«148534_j72164040507424_2_alg».proof.Proof.LibPadDot

noncomputable section

open scoped BigOperators

namespace Cert.LibScatterPad

open Idealize.ShloMosaic Idealize.ShloMosaic.ValueIdx Cert.RowOps

/-- Entry (r, o) of a padded scatter-add is entry (r, o) of the unpadded one: the tables agree at (r, o), the first n
    row numbers agree, no padding row number is r, and the updates that land in row r agree in column o. -/
theorem scatterAdd_rows_padded {R C n n' : ℕ} (hn : n ≤ n')
    (wf : ScatterDims.WF ⟨2, ![R, C]⟩ ⟨2, ![n, 1]⟩ ⟨2, ![n, C]⟩ [1] [0] [0] 1)
    (wf' : ScatterDims.WF ⟨2, ![R, C]⟩ ⟨2, ![n', 1]⟩ ⟨2, ![n', C]⟩ [1] [0] [0] 1)
    (x x' : (⟨2, ![R, C]⟩ : Shape).Idx → EReal) (idx : IVec ⟨2, ![n, 1]⟩ 32) (idx' : IVec ⟨2, ![n', 1]⟩ 32)
    (upd : (⟨2, ![n, C]⟩ : Shape).Idx → EReal) (upd' : (⟨2, ![n', C]⟩ : Shape).Idx → EReal) (r : Fin R) (o : Fin C)
    (hx : x' (ix2 r o) = x (ix2 r o))
    (hidx : ∀ e : Fin n, idx' (ix2 (Fin.castLE hn e) 0) = idx (ix2 e 0))
    (hpad : ∀ e : Fin n', n ≤ e.val → (idx' (ix2 e 0)).toInt ≠ (r.val : Int))
    (hupd : ∀ e : Fin n, (idx (ix2 e 0)).toInt = (r.val : Int) → upd' (ix2 (Fin.castLE hn e) o) = upd (ix2 e o)) :
    Ideal.hostScatterAdd (rowScatter R C n' wf') x' idx' upd' (ix2 r o)
      = Ideal.hostScatterAdd (rowScatter R C n wf) x idx upd (ix2 r o) := by
  rw [scatterAdd_rows_apply, scatterAdd_rows_apply, hx]
  congr 1
  rw [Cert.KernelIdeal.HandValue.LibPadDot.sum_eq_sum_castLE_of_tail_zero hn
    (fun e : Fin n' => if (idx' (ix2 e 0)).toInt = (r.val : Int) then upd' (ix2 e o) else 0)
    (fun e he => if_neg (hpad e he))]
  refine Finset.sum_congr rfl fun e _ => ?_
  show (if (idx' (ix2 (Fin.castLE hn e) 0)).toInt = (r.val : Int) then upd' (ix2 (Fin.castLE hn e) o) else 0) = _
  rw [hidx e]
  by_cases h : (idx (ix2 e 0)).toInt = (r.val : Int)
  · rw [if_pos h, if_pos h, hupd e h]
  · rw [if_neg h, if_neg h]

/-- The same for the host's accumulating scatter at the ideal values, its dimension numbers given as records that ARE
    the row-scatter records (so a printed record is handed over with `rfl`). -/
theorem host_scatterAdd_rows_padded {R C n n' : ℕ} (hn : n ≤ n')
    (d : ScatterDims ⟨2, ![R, C]⟩ ⟨2, ![n, 1]⟩ ⟨2, ![n, C]⟩) (d' : ScatterDims ⟨2, ![R, C]⟩ ⟨2, ![n', 1]⟩ ⟨2, ![n', C]⟩)
    (wf : ScatterDims.WF ⟨2, ![R, C]⟩ ⟨2, ![n, 1]⟩ ⟨2, ![n, C]⟩ [1] [0] [0] 1)
    (wf' : ScatterDims.WF ⟨2, ![R, C]⟩ ⟨2, ![n', 1]⟩ ⟨2, ![n', C]⟩ [1] [0] [0] 1)
    (hd : d = rowScatter R C n wf) (hd' : d' = rowScatter R C n' wf')
    (x x' : (⟨2, ![R, C]⟩ : Shape).Idx → EReal) (idx : IVec ⟨2, ![n, 1]⟩ 32) (idx' : IVec ⟨2, ![n', 1]⟩ 32)
    (upd : (⟨2, ![n, C]⟩ : Shape).Idx → EReal) (upd' : (⟨2, ![n', C]⟩ : Shape).Idx → EReal) (r : Fin R) (o : Fin C)
    (hx : x' (ix2 r o) = x (ix2 r o))
    (hidx : ∀ e : Fin n, idx' (ix2 (Fin.castLE hn e) 0) = idx (ix2 e 0))
    (hpad : ∀ e : Fin n', n ≤ e.val → (idx' (ix2 e 0)).toInt ≠ (r.val : Int))
    (hupd : ∀ e : Fin n, (idx (ix2 e 0)).toInt = (r.val : Int) → upd' (ix2 (Fin.castLE hn e) o) = upd (ix2 e o)) :
    Host.scatterAdd (F := Ideal) (φ := .f32) d' x' idx' upd' (ix2 r o)
      = Host.scatterAdd (F := Ideal) (φ := .f32) d x idx upd (ix2 r o) := by
  subst hd hd'
  exact scatterAdd_rows_padded hn wf wf' x x' idx idx' upd upd' r o hx hidx hpad hupd

end Cert.LibScatterPad

end
-- ==== Proof.Bridge.lean ====
/-
  The idealized kernel's result is the reference's.

  The kernel's result buffer is what its projection region leaves: row n of the features against the projection
  weight, plus the bias, plus row n of the aggregate buffer.  The aggregate buffer is the scatter-add, into zeros, of
  the message array (802816 rows: one per edge, then 2816 rows of padding) at the padded target column; a padding
  row carries the row number 50000, which is no row of the 50000-row table, so it lands nowhere, and the other rows
  are the reference's messages at the reference's row numbers: the edge network's region computes, row by row, the
  same function of the same gathered features and the same edge length.  So the two aggregates agree entry by
  entry, and with them the results.
-/
import proofs.«148534_j72164040507424_2_alg».proof.Proof.Gen.KernelIdeal.Frame
import proofs.«148534_j72164040507424_2_alg».proof.Proof.Gen.ReferenceIdeal.Read
import proofs.«148534_j72164040507424_2_alg».proof.Proof.Spec
import proofs.«148534_j72164040507424_2_alg».proof.Proof.Region0
import proofs.«148534_j72164040507424_2_alg».proof.Proof.Region1
import proofs.«148534_j72164040507424_2_alg».proof.Proof.RefEntry
import proofs.«148534_j72164040507424_2_alg».proof.Proof.KHostIn
import proofs.«148534_j72164040507424_2_alg».proof.Proof.KHostXs
import proofs.«148534_j72164040507424_2_alg».proof.Proof.LibScatterPad
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)
/-- What the projection region finds in the aggregate buffer: the scatter-add, into a table of zeros, of the widened
    message array at the padded target column. -/
theorem p_v46 (c : Dev nD) : (W5 m ρ c (Proc.devRef .tc main_v46) : S50000x64.Idx → EReal)
    = Host.scatterAdd (F := Ideal) scatter_S50000x64_S802816x1_S802816x64_1_0_0_1
        (broadcastInDim S50000x64 ![] bcast_S_S50000x64 (constant (F := Ideal) S_ .f32 0x00000000#32))
        (broadcastInDim S802816x1 ![0] bcast_S802816_S802816x1_0 (W4 m ρ c (Proc.devRef .tc main_v33) : S802816.Idx → BitVec 32))
        (extf .f32 (W4 m ρ c (Proc.devRef .tc main_v42) : S802816x64.Idx → EReal) bitsLt_bf16_f32) := by
  show StableHlo.after hostOps1 (W4 m ρ c) (Proc.devRef .tc main_v46) = _
  generalize W4 m ρ c = F4
  simp only [hostOps1]
  after_results

/-- Row e of the message buffer after the edge region, for a real edge e: the reference's message of edge e. -/
theorem msg_row (c : Dev nD) (e : Fin 800000) (o : Fin 64) :
    (W4 m ρ c (Proc.devRef .tc main_v42) : S802816x64.Idx → EReal) (ix2 ⟨e.val, by omega⟩ o)
      = Cert.ReferenceIdeal.Read.val_main_v59 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 e o) := by
  rw [Cert.ReferenceIdeal.Entry.msg_entry]
  have h := congrFun ((W4_arr m ρ c 11).trans (Cert.KernelIdeal.Region0.final (V3 m ρ) c)) (ix2 ⟨e.val, by omega⟩ o)
  refine h.trans ?_
  unfold Cert.KernelIdeal.Region0.G
  have hr : (⟨((ix2 (⟨e.val, by omega⟩ : Fin 802816) o : S802816x64.Idx) 0).val, idx2_lt0 _⟩ : Fin 802816) = ⟨e.val, by omega⟩ := rfl
  have ho : (⟨((ix2 (⟨e.val, by omega⟩ : Fin 802816) o : S802816x64.Idx) 1).val, idx2_lt1 _⟩ : Fin 64) = o := rfl
  rw [hr, ho]
  have h0 : (fun k : Fin 64 => V3 m ρ c main_v29 (ix2 (⟨e.val, by omega⟩ : Fin 802816) k))
      = fun k => Cert.ReferenceIdeal.Read.val_main_v39 (F := Ideal) (m ((c : Thread nD τ).loc main_arg0)) (m ((c : Thread nD τ).loc main_arg1)) (ix2 e k) :=
    funext fun k => Cert.KernelIdeal.KHostXs.xs_entry m ρ c e k
  have h1 : V3 m ρ c main_v34 (ix2 (⟨e.val, by omega⟩ : Fin 802816) 0)
      = Cert.ReferenceIdeal.Read.val_main_v19 (F := Ideal) (m ((c : Thread nD τ).loc main_arg1)) (m ((c : Thread nD τ).loc main_arg2)) (ix2 e 0) := Cert.KernelIdeal.KHostIn.d_entry m ρ c e
  have h2 : (fun p : Fin 16 => V3 m ρ c main_arg9 (ix2 0 p)) = fun p => (m ((c : Thread nD τ).loc main_arg9)) (ix2 0 p) :=
    funext fun p => congrFun (Cert.KernelIdeal.KHostIn.w_arg9 m ρ c) (ix2 0 p)
  have h3 : (fun p : Fin 16 => V3 m ρ c main_v37 (ix2 0 p)) = fun p => (m ((c : Thread nD τ).loc main_arg10)) (ix1 p) := funext fun p => Cert.KernelIdeal.KHostIn.w_v37 m ρ c p
  have h4 : (fun (p : Fin 16) (q : Fin 4) => V3 m ρ c main_arg11 (ix2 p q)) = fun p q => (m ((c : Thread nD τ).loc main_arg11)) (ix2 p q) :=
    funext fun p => funext fun q => congrFun (Cert.KernelIdeal.KHostIn.w_arg11 m ρ c) (ix2 p q)
  have h5 : (fun q : Fin 4 => V3 m ρ c main_v38 (ix2 0 q)) = fun q => (m ((c : Thread nD τ).loc main_arg12)) (ix1 q) := funext fun q => Cert.KernelIdeal.KHostIn.w_v38 m ρ c q
  have h6 : (fun (k j : Fin 64) => V3 m ρ c main_v35 (ix2 k j)) = fun k j => (m ((c : Thread nD τ).loc main_arg5)) (ix2 (Fin.castAdd 4 k) j) :=
    funext fun k => funext fun j => Cert.KernelIdeal.KHostIn.w_v35 m ρ c k j
  have h7 : (fun (q : Fin 4) (j : Fin 64) => V3 m ρ c main_v36 (ix2 q j)) = fun q j => (m ((c : Thread nD τ).loc main_arg5)) (ix2 (Fin.natAdd 64 q) j) :=
    funext fun q => funext fun j => Cert.KernelIdeal.KHostIn.w_v36 m ρ c q j
  have h8 : (fun j : Fin 64 => V3 m ρ c main_v39 (ix2 0 j)) = fun j => (m ((c : Thread nD τ).loc main_arg6)) (ix1 j) := funext fun j => Cert.KernelIdeal.KHostIn.w_v39 m ρ c j
  have h9 : (fun (j o : Fin 64) => V3 m ρ c main_arg7 (ix2 j o)) = fun j o => (m ((c : Thread nD τ).loc main_arg7)) (ix2 j o) :=
    funext fun j => funext fun o => congrFun (Cert.KernelIdeal.KHostIn.w_arg7 m ρ c) (ix2 j o)
  have h10 : (fun o : Fin 64 => V3 m ρ c main_v40 (ix2 0 o)) = fun o => (m ((c : Thread nD τ).loc main_arg8)) (ix1 o) := funext fun o => Cert.KernelIdeal.KHostIn.w_v40 m ρ c o
  rw [h0, h1, h2, h3, h4, h5, h6, h7, h8, h9, h10]

/-- The padding row number, read signed. -/
theorem pad_toInt : (50000#32 : BitVec 32).toInt = 50000 := by decide

/-- The padded target column at a real edge is the reference's target column. -/
theorem idx_real (c : Dev nD) (e : Fin 800000) :
    (broadcastInDim S802816x1 ![0] bcast_S802816_S802816x1_0 (W4 m ρ c (Proc.devRef .tc main_v33) : S802816.Idx → BitVec 32))
        (ix2 (Fin.castLE (by omega : 800000 ≤ 802816) e) 0)
      = Cert.ReferenceIdeal.Read.val_main_v61 (F := Ideal) (m ((c : Thread nD τ).loc main_arg1)) (ix2 e 0) := by
  refine (broadcastInDim_apply _ _ _ _ (ix1 (Fin.castLE (by omega : 800000 ≤ 802816) e)) ?_).trans ?_
  · intro a; match a with
    | ⟨0, _⟩ => rfl
  refine (Cert.KernelIdeal.KHostIn.tgt_entry m ρ c e).trans ?_
  refine ((Cert.ReferenceIdeal.Read.val_main_v61_apply (F := Ideal) (m ((c : Thread nD τ).loc main_arg1)) (ix2 e 0)).trans ?_).symm
  exact congrArg _ (funext fun a => by match a with | ⟨0, _⟩ => rfl)

/-- The padded target column at a padding row is the row number 50000. -/
theorem idx_pad (c : Dev nD) (e : Fin 802816) (he : 800000 ≤ e.val) :
    (broadcastInDim S802816x1 ![0] bcast_S802816_S802816x1_0 (W4 m ρ c (Proc.devRef .tc main_v33) : S802816.Idx → BitVec 32)) (ix2 e 0)
      = 50000#32 := by
  refine (broadcastInDim_apply _ _ _ _ (ix1 e) ?_).trans (Cert.KernelIdeal.KHostIn.tgt_pad m ρ c e he)
  intro a; match a with
  | ⟨0, _⟩ => rfl

/-- The aggregate buffer the projection region finds is the reference's aggregate, entry by entry. -/
theorem agg_entry (c : Dev nD) (n : Fin 50000) (o : Fin 64) :
    (W5 m ρ c (Proc.devRef .tc main_v46) : S50000x64.Idx → EReal) (ix2 n o)
      = Cert.ReferenceIdeal.Read.val_main_v62 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 n o) := by
  rw [p_v46]
  unfold Cert.ReferenceIdeal.Read.val_main_v62
  refine Cert.LibScatterPad.host_scatterAdd_rows_padded (R := 50000) (C := 64) (n := 800000) (n' := 802816) (by omega)
    Cert.ReferenceIdeal.scatter_S50000x64_S800000x1_S800000x64_1_0_0_1 scatter_S50000x64_S802816x1_S802816x64_1_0_0_1
    Cert.ReferenceIdeal.scatter_S50000x64_S800000x1_S800000x64_1_0_0_1.wf scatter_S50000x64_S802816x1_S802816x64_1_0_0_1.wf rfl rfl
    (Cert.ReferenceIdeal.Read.val_main_v60 (F := Ideal)) _ (Cert.ReferenceIdeal.Read.val_main_v61 (F := Ideal) (m ((c : Thread nD τ).loc main_arg1))) _
    (Cert.ReferenceIdeal.Read.val_main_v59 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) _ n o ?_ (idx_real m ρ c) ?_ (fun e _ => msg_row m ρ c e o)
  · rfl
  · intro e he
    rw [idx_pad m ρ c e he, pad_toInt]
    have := n.isLt
    omega

/-- THE RESULT: what the kernel's result buffer ends holding is the reference's result term of the same arguments. -/
theorem value_eq (c : Dev nD) :
    (W6 m ρ c (Proc.devRef .tc main_v47) : S50000x64.Idx → EReal)
      = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨n, o, rfl⟩ : ∃ (n : Fin 50000) (o : Fin 64), i = ix2 n o := ⟨i 0, i 1, eq_ix2 i⟩
  rw [Cert.ReferenceIdeal.Entry.node_entry]
  have h := congrFun ((W6_arr m ρ c 4).trans (Cert.KernelIdeal.Region1.final (V5 m ρ) c)) (ix2 n o)
  refine h.trans ?_
  unfold Cert.KernelIdeal.Region1.G
  have hr : (⟨((ix2 n o : S50000x64.Idx) 0).val, idx2_lt0 _⟩ : Fin 50000) = n := rfl
  have ho : (⟨((ix2 n o : S50000x64.Idx) 1).val, idx2_lt1 _⟩ : Fin 64) = o := rfl
  rw [hr, ho]
  have h0 : (fun k : Fin 64 => V5 m ρ c main_arg0 (ix2 n k)) = fun k => (m ((c : Thread nD τ).loc main_arg0)) (ix2 n k) :=
    funext fun k => congrFun (Cert.KernelIdeal.KHostIn.p_arg0 m ρ c) (ix2 n k)
  have h1 : (fun (k o : Fin 64) => V5 m ρ c main_arg3 (ix2 k o)) = fun k o => (m ((c : Thread nD τ).loc main_arg3)) (ix2 k o) :=
    funext fun k => funext fun o => congrFun (Cert.KernelIdeal.KHostIn.p_arg3 m ρ c) (ix2 k o)
  have h2 : (fun o : Fin 64 => V5 m ρ c main_v41 (ix2 0 o)) = fun o => (m ((c : Thread nD τ).loc main_arg4)) (ix1 o) := funext fun o => Cert.KernelIdeal.KHostIn.p_v41 m ρ c o
  have h3 : (fun o : Fin 64 => V5 m ρ c main_v46 (ix2 n o))
      = fun o => Cert.ReferenceIdeal.Read.val_main_v62 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 n o) := funext fun o => agg_entry m ρ c n o
  rw [h0, h1, h2, h3]

end Cert.KernelIdeal.Bridge

end
-- ==== Proof.lean ====
/-
  The certificate of a message-passing layer's kernel against its reference, on the extended reals.

  Both programs compute, for every node n and output column o,

      out[n, o] = Σ_k x[n, k] · Wp[k, o] + bp[o] + Σ_{edges e with target n} msg_e[o],

  where msg_e is the edge network applied to the source node's features and the edge's length, times a smooth
  cutoff (the specification spells it out entry by entry).  The reference does this with host operations on
  800000 edges; the kernel gathers and measures on the host, pads the edge list to 802816 rows (98 blocks of 8192),
  runs the edge network block by block in one region, scatter-adds the messages on the host with the padding rows
  sent to the out-of-range row number 50000, and adds the projection and the bias in a second region over ten blocks
  of 5000 nodes.  At the ideal values a change of float format is the identity, a matrix product into a zero
  accumulator is the plain sum, and the first edge layer on the 68 concatenated columns is the sum of its 64-column
  and 4-column halves, so the two results are the same extended reals.

  The three frames are the generated ones (the reference's is its generated run with the result dropped), the
  idealization rewrote no operation, and the value claim pairs the kernel's run with its result named against the
  reference's generated run, the two result terms joined index by index.
-/
import proofs.«148534_j72164040507424_2_alg».proof.Defs
import proofs.«148534_j72164040507424_2_alg».proof.Proof.Gen.Kernel
import proofs.«148534_j72164040507424_2_alg».proof.Proof.Gen.Kernel.Skeleton
import proofs.«148534_j72164040507424_2_alg».proof.Proof.Gen.Kernel.Launch
import proofs.«148534_j72164040507424_2_alg».proof.Proof.Gen.Kernel.Points
import proofs.«148534_j72164040507424_2_alg».proof.Proof.Gen.Kernel.Frame
import proofs.«148534_j72164040507424_2_alg».proof.Proof.Gen.KernelIdeal
import proofs.«148534_j72164040507424_2_alg».proof.Proof.Gen.KernelIdeal.Skeleton
import proofs.«148534_j72164040507424_2_alg».proof.Proof.Gen.KernelIdeal.Launch
import proofs.«148534_j72164040507424_2_alg».proof.Proof.Gen.KernelIdeal.Points
import proofs.«148534_j72164040507424_2_alg».proof.Proof.Gen.KernelIdeal.Frame
import proofs.«148534_j72164040507424_2_alg».proof.Proof.Gen.ReferenceIdeal
import proofs.«148534_j72164040507424_2_alg».proof.Proof.Gen.ReferenceIdeal.Run
import proofs.«148534_j72164040507424_2_alg».proof.Proof.Gen.ReferenceIdeal.Read
import proofs.«148534_j72164040507424_2_alg».proof.Proof.Gen.Pre_finite_inputs
import proofs.«148534_j72164040507424_2_alg».proof.Proof.KRun
import proofs.«148534_j72164040507424_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the thirteen arguments both programs run, and the kernel's result buffer ends at
    the reference's result term: the kernel's run names its result, the reference's run names its own, and the two
    are one function of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v47), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq]
  obtain ⟨h0, h1, h2, h3, h4, h5, h6, h7, h8, h9, h10, h11, h12⟩ := hagree c
  rw [h0, h1, h2, h3, h4, h5, h6, h7, h8, h9, h10, h11, h12]
  exact (Cert.KernelIdeal.Bridge.value_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
